-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1024x256 : Shape := ⟨3, ![2, 1024, 256]⟩
abbrev S2x1024 : Shape := ⟨2, ![2, 1024]⟩
abbrev S20000x256 : Shape := ⟨2, ![20000, 256]⟩
abbrev S10000x256 : Shape := ⟨2, ![10000, 256]⟩
abbrev S20000 : Shape := ⟨1, ![20000]⟩
abbrev S10000 : Shape := ⟨1, ![10000]⟩
abbrev S_ : Shape := ⟨0, ![]⟩

class Facts : Prop where
  bcast_S_S2x1024x256 : S_.BroadcastsInDim S2x1024x256 (![] : Fin 0 → Fin S2x1024x256.rank)
  reducesTo_S2x1024x256_S_d0_1_2 : S2x1024x256.ReducesTo [0, 1, 2] S_
  h_S_ : 0 < S_.numel
  bcast_S_S20000x256 : S_.BroadcastsInDim S20000x256 (![] : Fin 0 → Fin S20000x256.rank)
  reducesTo_S20000x256_S_d0_1 : S20000x256.ReducesTo [0, 1] S_
  bcast_S_S10000x256 : S_.BroadcastsInDim S10000x256 (![] : Fin 0 → Fin S10000x256.rank)
  reducesTo_S10000x256_S_d0_1 : S10000x256.ReducesTo [0, 1] S_
  bcast_S_S20000 : S_.BroadcastsInDim S20000 (![] : Fin 0 → Fin S20000.rank)
  reducesTo_S20000_S_d0 : S20000.ReducesTo [0] S_
  bcast_S_S10000 : S_.BroadcastsInDim S10000 (![] : Fin 0 → Fin S10000.rank)
  reducesTo_S10000_S_d0 : S10000.ReducesTo [0] S_

variable [Facts]

def fn_part1 {F : FTy → Type} [FloatOps F] (main_arg5 : FVec F S20000 .f32) (main_arg6 : FVec F S20000 .f32) (main_arg7 : FVec F S10000 .f32) (main_v13 : IVec S_ 1) (main_v16 : IVec S10000x256 1) : IVec S_ 1 :=
  let main_c_5 : IVec S_ 1 := constantI S_ 1 1#1
  let main_v17 : IVec S_ 1 := (fun x v => Host.reduce IntOp.andi x v reducesTo_S10000x256_S_d0_1 h_S_) main_v16 main_c_5
  let main_v18 : IVec S_ 1 := andi main_v13 main_v17
  let main_v19 : FVec F S20000 .f32 := Host.absf main_arg5
  let main_cst_6 : FVec F S_ .f32 := constant S_ .f32 0x7F800000#32
  let main_v20 : FVec F S20000 .f32 := broadcastInDim S20000 ![] bcast_S_S20000 main_cst_6
  let main_v21 : IVec S20000 1 := cmpf .olt main_v19 main_v20
  let main_c_7 : IVec S_ 1 := constantI S_ 1 1#1
  let main_v22 : IVec S_ 1 := (fun x v => Host.reduce IntOp.andi x v reducesTo_S20000_S_d0 h_S_) main_v21 main_c_7
  let main_v23 : IVec S_ 1 := andi main_v18 main_v22
  let main_v24 : FVec F S20000 .f32 := Host.absf main_arg6
  let main_cst_8 : FVec F S_ .f32 := constant S_ .f32 0x7F800000#32
  let main_v25 : FVec F S20000 .f32 := broadcastInDim S20000 ![] bcast_S_S20000 main_cst_8
  let main_v26 : IVec S20000 1 := cmpf .olt main_v24 main_v25
  let main_c_9 : IVec S_ 1 := constantI S_ 1 1#1
  let main_v27 : IVec S_ 1 := (fun x v => Host.reduce IntOp.andi x v reducesTo_S20000_S_d0 h_S_) main_v26 main_c_9
  let main_v28 : IVec S_ 1 := andi main_v23 main_v27
  let main_v29 : FVec F S10000 .f32 := Host.absf main_arg7
  let main_cst_10 : FVec F S_ .f32 := constant S_ .f32 0x7F800000#32
  let main_v30 : FVec F S10000 .f32 := broadcastInDim S10000 ![] bcast_S_S10000 main_cst_10
  let main_v31 : IVec S10000 1 := cmpf .olt main_v29 main_v30
  let main_c_11 : IVec S_ 1 := constantI S_ 1 1#1
  let main_v32 : IVec S_ 1 := (fun x v => Host.reduce IntOp.andi x v reducesTo_S10000_S_d0 h_S_) main_v31 main_c_11
  let main_v33 : IVec S_ 1 := andi main_v28 main_v32
  main_v33

def fn {F : FTy → Type} [FloatOps F] (main_arg0 : FVec F S2x1024x256 .f32) (main_arg1 : IVec S2x1024 32) (main_arg2 : FVec F S20000x256 .f32) (main_arg3 : FVec F S20000x256 .f32) (main_arg4 : FVec F S10000x256 .f32) (main_arg5 : FVec F S20000 .f32) (main_arg6 : FVec F S20000 .f32) (main_arg7 : FVec F S10000 .f32) : IVec S_ 1 :=
  let main_v0 : FVec F S2x1024x256 .f32 := Host.absf main_arg0
  let main_cst : FVec F S_ .f32 := constant S_ .f32 0x7F800000#32
  let main_v1 : FVec F S2x1024x256 .f32 := broadcastInDim S2x1024x256 ![] bcast_S_S2x1024x256 main_cst
  let main_v2 : IVec S2x1024x256 1 := cmpf .olt main_v0 main_v1
  let main_c : IVec S_ 1 := constantI S_ 1 1#1
  let main_v3 : IVec S_ 1 := (fun x v => Host.reduce IntOp.andi x v reducesTo_S2x1024x256_S_d0_1_2 h_S_) main_v2 main_c
  let main_v4 : FVec F S20000x256 .f32 := Host.absf main_arg2
  let main_cst_0 : FVec F S_ .f32 := constant S_ .f32 0x7F800000#32
  let main_v5 : FVec F S20000x256 .f32 := broadcastInDim S20000x256 ![] bcast_S_S20000x256 main_cst_0
  let main_v6 : IVec S20000x256 1 := cmpf .olt main_v4 main_v5
  let main_c_1 : IVec S_ 1 := constantI S_ 1 1#1
  let main_v7 : IVec S_ 1 := (fun x v => Host.reduce IntOp.andi x v reducesTo_S20000x256_S_d0_1 h_S_) main_v6 main_c_1
  let main_v8 : IVec S_ 1 := andi main_v3 main_v7
  let main_v9 : FVec F S20000x256 .f32 := Host.absf main_arg3
  let main_cst_2 : FVec F S_ .f32 := constant S_ .f32 0x7F800000#32
  let main_v10 : FVec F S20000x256 .f32 := broadcastInDim S20000x256 ![] bcast_S_S20000x256 main_cst_2
  let main_v11 : IVec S20000x256 1 := cmpf .olt main_v9 main_v10
  let main_c_3 : IVec S_ 1 := constantI S_ 1 1#1
  let main_v12 : IVec S_ 1 := (fun x v => Host.reduce IntOp.andi x v reducesTo_S20000x256_S_d0_1 h_S_) main_v11 main_c_3
  let main_v13 : IVec S_ 1 := andi main_v8 main_v12
  let main_v14 : FVec F S10000x256 .f32 := Host.absf main_arg4
  let main_cst_4 : FVec F S_ .f32 := constant S_ .f32 0x7F800000#32
  let main_v15 : FVec F S10000x256 .f32 := broadcastInDim S10000x256 ![] bcast_S_S10000x256 main_cst_4
  let main_v16 : IVec S10000x256 1 := cmpf .olt main_v14 main_v15
  fn_part1 (F := F) main_arg5 main_arg6 main_arg7 main_v13 main_v16
-- ==== Kernel.lean ====
abbrev S2x1024x256 : Shape := ⟨3, ![2, 1024, 256]⟩
abbrev S2x1024 : Shape := ⟨2, ![2, 1024]⟩
abbrev S20000x256 : Shape := ⟨2, ![20000, 256]⟩
abbrev S10000x256 : Shape := ⟨2, ![10000, 256]⟩
abbrev S20000 : Shape := ⟨1, ![20000]⟩
abbrev S10000 : Shape := ⟨1, ![10000]⟩
abbrev S2048x256 : Shape := ⟨2, ![2048, 256]⟩
abbrev S2048x1 : Shape := ⟨2, ![2048, 1]⟩
abbrev S1x20000 : Shape := ⟨2, ![1, 20000]⟩
abbrev S1x10000 : Shape := ⟨2, ![1, 10000]⟩
abbrev S2048x50000 : Shape := ⟨2, ![2048, 50000]⟩
abbrev S16x256 : Shape := ⟨2, ![16, 256]⟩
abbrev S16x1 : Shape := ⟨2, ![16, 1]⟩
abbrev S16x50000 : Shape := ⟨2, ![16, 50000]⟩
abbrev S16x20000 : Shape := ⟨2, ![16, 20000]⟩
abbrev S16x10000 : Shape := ⟨2, ![16, 10000]⟩
abbrev S16 : Shape := ⟨1, ![16]⟩
abbrev S2x1024x50000 : Shape := ⟨3, ![2, 1024, 50000]⟩

abbrev nBuf : Space → Nat
  | .hbm => 19
  | .vmem => 12
  | .smem => 0
  | _ => 0

abbrev bufTy : (tb : Table) → Fin (tcTables nBuf tb) → BufTy
  | .hbm, ⟨0, _⟩ => ⟨S2x1024x256, .f32⟩
  | .hbm, ⟨1, _⟩ => ⟨S2x1024, .i32⟩
  | .hbm, ⟨2, _⟩ => ⟨S20000x256, .f32⟩
  | .hbm, ⟨3, _⟩ => ⟨S20000x256, .f32⟩
  | .hbm, ⟨4, _⟩ => ⟨S10000x256, .f32⟩
  | .hbm, ⟨5, _⟩ => ⟨S20000, .f32⟩
  | .hbm, ⟨6, _⟩ => ⟨S20000, .f32⟩
  | .hbm, ⟨7, _⟩ => ⟨S10000, .f32⟩
  | .hbm, ⟨8, _⟩ => ⟨S2048x256, .f32⟩
  | .hbm, ⟨9, _⟩ => ⟨S2048x256, .bf16⟩
  | .hbm, ⟨10, _⟩ => ⟨S2048x1, .i32⟩
  | .hbm, ⟨11, _⟩ => ⟨S20000x256, .bf16⟩
  | .hbm, ⟨12, _⟩ => ⟨S20000x256, .bf16⟩
  | .hbm, ⟨13, _⟩ => ⟨S10000x256, .bf16⟩
  | .hbm, ⟨14, _⟩ => ⟨S1x20000, .f32⟩
  | .hbm, ⟨15, _⟩ => ⟨S1x20000, .f32⟩
  | .hbm, ⟨16, _⟩ => ⟨S1x10000, .f32⟩
  | .hbm, ⟨17, _⟩ => ⟨S2048x50000, .f32⟩
  | .hbm, ⟨18, _⟩ => ⟨S2x1024x50000, .f32⟩
  | .local _ .vmem, ⟨0, _⟩ => ⟨S16x256, .bf16⟩
  | .local _ .vmem, ⟨1, _⟩ => ⟨S16x256, .bf16⟩
  | .local _ .vmem, ⟨2, _⟩ => ⟨S16x1, .i32⟩
  | .local _ .vmem, ⟨3, _⟩ => ⟨S16x1, .i32⟩
  | .local _ .vmem, ⟨4, _⟩ => ⟨S20000x256, .bf16⟩
  | .local _ .vmem, ⟨5, _⟩ => ⟨S20000x256, .bf16⟩
  | .local _ .vmem, ⟨6, _⟩ => ⟨S10000x256, .bf16⟩
  | .local _ .vmem, ⟨7, _⟩ => ⟨S1x20000, .f32⟩
  | .local _ .vmem, ⟨8, _⟩ => ⟨S1x20000, .f32⟩
  | .local _ .vmem, ⟨9, _⟩ => ⟨S1x10000, .f32⟩
  | .local _ .vmem, ⟨10, _⟩ => ⟨S16x50000, .f32⟩
  | .local _ .vmem, ⟨11, _⟩ => ⟨S16x50000, .f32⟩
  | _, _ => ⟨S2x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S20000x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S20000x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10000x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x20000 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x20000 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x10000 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S16x50000 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S2x1024x256_S2048x256 : S2x1024x256.ShapeCasts S2048x256
  bitsLt_bf16_f32 : FTy.bits .bf16 < FTy.bits .f32
  shapeCasts_S2x1024_S2048x1 : S2x1024.ShapeCasts S2048x1
  shapeCasts_S20000_S1x20000 : S20000.ShapeCasts S1x20000
  shapeCasts_S10000_S1x10000 : S10000.ShapeCasts S1x10000
  inb_S16x1_S16x1_0_0 : ∀ a, (![0, 0] : Fin 2 → Nat) a + S16x1.size a ≤ S16x1.size a
  h_S16x1 : 0 < S16x1.numel
  shapeCasts_S16x1_S16x1 : S16x1.ShapeCasts S16x1
  inb_S16x256_S16x256_0_0 : ∀ a, (![0, 0] : Fin 2 → Nat) a + S16x256.size a ≤ S16x256.size a
  h_S16x256 : 0 < S16x256.numel
  shapeCasts_S16x256_S16x256 : S16x256.ShapeCasts S16x256
  natLt_1_32 : 1 < 32
  inb_S20000x256_S20000x256_0_0 : ∀ a, (![0, 0] : Fin 2 → Nat) a + S20000x256.size a ≤ S20000x256.size a
  h_S20000x256 : 0 < S20000x256.numel
  shapeCasts_S20000x256_S20000x256 : S20000x256.ShapeCasts S20000x256
  inb_S1x20000_S1x20000_0_0 : ∀ a, (![0, 0] : Fin 2 → Nat) a + S1x20000.size a ≤ S1x20000.size a
  h_S1x20000 : 0 < S1x20000.numel
  shapeCasts_S1x20000_S1x20000 : S1x20000.ShapeCasts S1x20000
  broadcasts_S1x20000_S16x20000 : S1x20000.Broadcasts S16x20000
  broadcasts_S16x1_S16x20000 : S16x1.Broadcasts S16x20000
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S1x10000_S1x10000_0_0 : ∀ a, (![0, 0] : Fin 2 → Nat) a + S1x10000.size a ≤ S1x10000.size a
  h_S1x10000 : 0 < S1x10000.numel
  shapeCasts_S1x10000_S1x10000 : S1x10000.ShapeCasts S1x10000
  broadcasts_S1x10000_S16x10000 : S1x10000.Broadcasts S16x10000
  broadcasts_S16x1_S16x10000 : S16x1.Broadcasts S16x10000
  reduces_S16x20000_S16 : S16x20000.Reduces [1] S16
  shapeCasts_S16_S16x1 : S16.ShapeCasts S16x1
  reduces_S16x10000_S16 : S16x10000.Reduces [1] S16
  inb_S16x50000_S16x20000_0_0 : ∀ a, (![0, 0] : Fin 2 → Nat) a + S16x20000.size a ≤ S16x50000.size a
  h_S16x20000 : 0 < S16x20000.numel
  inb_S16x50000_S16x20000_0_20000 : ∀ a, (![0, 20000] : Fin 2 → Nat) a + S16x20000.size a ≤ S16x50000.size a
  inb_S16x50000_S16x10000_0_40000 : ∀ a, (![0, 40000] : Fin 2 → Nat) a + S16x10000.size a ≤ S16x50000.size a
  h_S16x10000 : 0 < S16x10000.numel
  shapeCasts_S2048x50000_S2x1024x50000 : S2048x50000.ShapeCasts S2x1024x50000
  dot_S16x256_S20000x256_S16x20000_1_1_0_0_n_n_wf : DotDims.WF S16x256 S20000x256 S16x20000 [1] [1] [0] [0] [] []
  dot_S16x256_S10000x256_S16x10000_1_1_0_0_n_n_wf : DotDims.WF S16x256 S10000x256 S16x10000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256.size a ≤ S2048x256.size a
  hwx0_0 : ∀ i : grid0.Coords, EltTy.bits .bf16 = 32 ∨ (Rect.block (s := S2048x256) S16x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x1.size a ≤ S2048x1.size a
  hwx0_1 : ∀ i : grid0.Coords, EltTy.bits .i32 = 32 ∨ (Rect.block (s := S2048x1) S16x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S20000x256.size a ≤ S20000x256.size a
  hwx0_2 : ∀ i : grid0.Coords, EltTy.bits .bf16 = 32 ∨ (Rect.block (s := S20000x256) S20000x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S20000x256.size a ≤ S20000x256.size a
  hwx0_3 : ∀ i : grid0.Coords, EltTy.bits .bf16 = 32 ∨ (Rect.block (s := S20000x256) S20000x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10000x256.size a ≤ S10000x256.size a
  hwx0_4 : ∀ i : grid0.Coords, EltTy.bits .bf16 = 32 ∨ (Rect.block (s := S10000x256) S10000x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x20000.size a ≤ S1x20000.size a
  hwx0_5 : ∀ i : grid0.Coords, EltTy.bits .f32 = 32 ∨ (Rect.block (s := S1x20000) S1x20000.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x20000.size a ≤ S1x20000.size a
  hwx0_6 : ∀ i : grid0.Coords, EltTy.bits .f32 = 32 ∨ (Rect.block (s := S1x20000) S1x20000.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x10000.size a ≤ S1x10000.size a
  hwx0_7 : ∀ i : grid0.Coords, EltTy.bits .f32 = 32 ∨ (Rect.block (s := S1x10000) S1x10000.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S16x50000.size a ≤ S2048x50000.size a
  hwx0_8 : ∀ i : grid0.Coords, EltTy.bits .f32 = 32 ∨ (Rect.block (s := S2048x50000) S16x50000.size (cc0_transform_8 i) (hinb0_8 i)).WholeWords (EltTy.packing .f32)

variable [Facts₀]

def dot_S16x256_S20000x256_S16x20000_1_1_0_0_n_n : DotDims S16x256 S20000x256 S16x20000 where
  lhsContracting := [1]
  rhsContracting := [1]
  lhsNonContracting := [0]
  rhsNonContracting := [0]
  lhsBatch := []
  rhsBatch := []
  wf := dot_S16x256_S20000x256_S16x20000_1_1_0_0_n_n_wf
def dot_S16x256_S10000x256_S16x10000_1_1_0_0_n_n : DotDims S16x256 S10000x256 S16x10000 where
  lhsContracting := [1]
  rhsContracting := [1]
  lhsNonContracting := [0]
  rhsNonContracting := [0]
  lhsBatch := []
  rhsBatch := []
  wf := dot_S16x256_S10000x256_S16x10000_1_1_0_0_n_n_wf

abbrev win0_0 : Pipeline.Window sig grid0 :=
  Pipeline.Window.ofSpec (Memref.whole main_v1) S16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S16x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S20000x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S20000x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S10000x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x20000.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x20000.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1x10000.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S16x50000.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S2x1024x256 : Shape := ⟨3, ![2, 1024, 256]⟩
abbrev S2x1024 : Shape := ⟨2, ![2, 1024]⟩
abbrev S20000x256 : Shape := ⟨2, ![20000, 256]⟩
abbrev S10000x256 : Shape := ⟨2, ![10000, 256]⟩
abbrev S20000 : Shape := ⟨1, ![20000]⟩
abbrev S10000 : Shape := ⟨1, ![10000]⟩
abbrev S_ : Shape := ⟨0, ![]⟩
abbrev S2x1024x1 : Shape := ⟨3, ![2, 1024, 1]⟩
abbrev S2x1024x20000 : Shape := ⟨3, ![2, 1024, 20000]⟩
abbrev S1x1x20000 : Shape := ⟨3, ![1, 1, 20000]⟩
abbrev S2x1024x10000 : Shape := ⟨3, ![2, 1024, 10000]⟩
abbrev S1x1x10000 : Shape := ⟨3, ![1, 1, 10000]⟩
abbrev S2x1024x50000 : Shape := ⟨3, ![2, 1024, 50000]⟩

abbrev nBuf : Space → Nat
  | .hbm => 69
  | .vmem => 0
  | .smem => 0
  | _ => 0

abbrev bufTy : (tb : Table) → Fin (tcTables nBuf tb) → BufTy
  | .hbm, ⟨0, _⟩ => ⟨S2x1024x256, .f32⟩
  | .hbm, ⟨1, _⟩ => ⟨S2x1024, .i32⟩
  | .hbm, ⟨2, _⟩ => ⟨S20000x256, .f32⟩
  | .hbm, ⟨3, _⟩ => ⟨S20000x256, .f32⟩
  | .hbm, ⟨4, _⟩ => ⟨S10000x256, .f32⟩
  | .hbm, ⟨5, _⟩ => ⟨S20000, .f32⟩
  | .hbm, ⟨6, _⟩ => ⟨S20000, .f32⟩
  | .hbm, ⟨7, _⟩ => ⟨S10000, .f32⟩
  | .hbm, ⟨8, _⟩ => ⟨S_, .i32⟩
  | .hbm, ⟨9, _⟩ => ⟨S2x1024, .i32⟩
  | .hbm, ⟨10, _⟩ => ⟨S2x1024, .i1⟩
  | .hbm, ⟨11, _⟩ => ⟨S_, .i32⟩
  | .hbm, ⟨12, _⟩ => ⟨S2x1024, .i32⟩
  | .hbm, ⟨13, _⟩ => ⟨S2x1024, .i1⟩
  | .hbm, ⟨14, _⟩ => ⟨S2x1024, .i1⟩
  | .hbm, ⟨15, _⟩ => ⟨S2x1024, .f32⟩
  | .hbm, ⟨16, _⟩ => ⟨S2x1024x1, .f32⟩
  | .hbm, ⟨17, _⟩ => ⟨S2x1024x20000, .f32⟩
  | .hbm, ⟨18, _⟩ => ⟨S1x1x20000, .f32⟩
  | .hbm, ⟨19, _⟩ => ⟨S2x1024x20000, .f32⟩
  | .hbm, ⟨20, _⟩ => ⟨S2x1024x20000, .f32⟩
  | .hbm, ⟨21, _⟩ => ⟨S2x1024x20000, .f32⟩
  | .hbm, ⟨22, _⟩ => ⟨S2x1024x20000, .f32⟩
  | .hbm, ⟨23, _⟩ => ⟨S_, .i32⟩
  | .hbm, ⟨24, _⟩ => ⟨S2x1024, .i32⟩
  | .hbm, ⟨25, _⟩ => ⟨S2x1024, .i1⟩
  | .hbm, ⟨26, _⟩ => ⟨S_, .i32⟩
  | .hbm, ⟨27, _⟩ => ⟨S2x1024, .i32⟩
  | .hbm, ⟨28, _⟩ => ⟨S2x1024, .i1⟩
  | .hbm, ⟨29, _⟩ => ⟨S2x1024, .i1⟩
  | .hbm, ⟨30, _⟩ => ⟨S2x1024, .f32⟩
  | .hbm, ⟨31, _⟩ => ⟨S2x1024x1, .f32⟩
  | .hbm, ⟨32, _⟩ => ⟨S2x1024x20000, .f32⟩
  | .hbm, ⟨33, _⟩ => ⟨S1x1x20000, .f32⟩
  | .hbm, ⟨34, _⟩ => ⟨S2x1024x20000, .f32⟩
  | .hbm, ⟨35, _⟩ => ⟨S2x1024x20000, .f32⟩
  | .hbm, ⟨36, _⟩ => ⟨S2x1024x20000, .f32⟩
  | .hbm, ⟨37, _⟩ => ⟨S2x1024x20000, .f32⟩
  | .hbm, ⟨38, _⟩ => ⟨S_, .i32⟩
  | .hbm, ⟨39, _⟩ => ⟨S2x1024, .i32⟩
  | .hbm, ⟨40, _⟩ => ⟨S2x1024, .i1⟩
  | .hbm, ⟨41, _⟩ => ⟨S_, .i32⟩
  | .hbm, ⟨42, _⟩ => ⟨S2x1024, .i32⟩
  | .hbm, ⟨43, _⟩ => ⟨S2x1024, .i1⟩
  | .hbm, ⟨44, _⟩ => ⟨S2x1024, .i1⟩
  | .hbm, ⟨45, _⟩ => ⟨S2x1024, .f32⟩
  | .hbm, ⟨46, _⟩ => ⟨S2x1024x1, .f32⟩
  | .hbm, ⟨47, _⟩ => ⟨S2x1024x10000, .f32⟩
  | .hbm, ⟨48, _⟩ => ⟨S1x1x10000, .f32⟩
  | .hbm, ⟨49, _⟩ => ⟨S2x1024x10000, .f32⟩
  | .hbm, ⟨50, _⟩ => ⟨S2x1024x10000, .f32⟩
  | .hbm, ⟨51, _⟩ => ⟨S2x1024x10000, .f32⟩
  | .hbm, ⟨52, _⟩ => ⟨S2x1024x10000, .f32⟩
  | .hbm, ⟨53, _⟩ => ⟨S2x1024x50000, .f32⟩
  | .hbm, ⟨54, _⟩ => ⟨S_, .f32⟩
  | .hbm, ⟨55, _⟩ => ⟨S2x1024, .f32⟩
  | .hbm, ⟨56, _⟩ => ⟨S_, .f32⟩
  | .hbm, ⟨57, _⟩ => ⟨S2x1024, .f32⟩
  | .hbm, ⟨58, _⟩ => ⟨S2x1024, .f32⟩
  | .hbm, ⟨59, _⟩ => ⟨S2x1024x1, .f32⟩
  | .hbm, ⟨60, _⟩ => ⟨S2x1024x50000, .f32⟩
  | .hbm, ⟨61, _⟩ => ⟨S2x1024x50000, .f32⟩
  | .hbm, ⟨62, _⟩ => ⟨S2x1024x50000, .f32⟩
  | .hbm, ⟨63, _⟩ => ⟨S_, .f32⟩
  | .hbm, ⟨64, _⟩ => ⟨S2x1024, .f32⟩
  | .hbm, ⟨65, _⟩ => ⟨S2x1024x1, .f32⟩
  | .hbm, ⟨66, _⟩ => ⟨S2x1024x1, .f32⟩
  | .hbm, ⟨67, _⟩ => ⟨S2x1024x50000, .f32⟩
  | .hbm, ⟨68, _⟩ => ⟨S2x1024x50000, .f32⟩
  | _, _ => ⟨S2x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_3 : Ref sig .tc := ⟨.hbm, 38, rfl⟩
abbrev main_v26 : Ref sig .tc := ⟨.hbm, 39, rfl⟩
abbrev main_v27 : Ref sig .tc := ⟨.hbm, 40, rfl⟩
abbrev main_c_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_call0_cst : Ref sig .tc := ⟨.hbm, 54, rfl⟩
abbrev main_call0_v0 : Ref sig .tc := ⟨.hbm, 55, rfl⟩
abbrev main_call0_cst_0 : Ref sig .tc := ⟨.hbm, 56, rfl⟩
abbrev main_call0_v1 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_call0_v5 : Ref sig .tc := ⟨.hbm, 61, rfl⟩
abbrev main_call0_v6 : Ref sig .tc := ⟨.hbm, 62, rfl⟩
abbrev main_call0_cst_1 : Ref sig .tc := ⟨.hbm, 63, rfl⟩
abbrev main_call0_v7 : Ref sig .tc := ⟨.hbm, 64, rfl⟩
abbrev main_call0_v8 : Ref sig .tc := ⟨.hbm, 65, rfl⟩
abbrev main_call0_v9 : Ref sig .tc := ⟨.hbm, 66, rfl⟩
abbrev main_call0_v10 : Ref sig .tc := ⟨.hbm, 67, rfl⟩
abbrev main_v40 : Ref sig .tc := ⟨.hbm, 68, rfl⟩

abbrev nD : Nat := 1
abbrev τ : Topo := Topo.v7x

variable {F : FTy → Type} [FloatOps F]

class Facts₀ : Prop where
  bcast_S_S2x1024 : S_.BroadcastsInDim S2x1024 (![] : Fin 0 → Fin S2x1024.rank)
  bcast_S2x1024_S2x1024x1_0_1 : S2x1024.BroadcastsInDim S2x1024x1 (![0, 1] : Fin 2 → Fin S2x1024x1.rank)
  bcast_S20000_S1x1x20000_2 : S20000.BroadcastsInDim S1x1x20000 (![2] : Fin 1 → Fin S1x1x20000.rank)
  bcast_S1x1x20000_S2x1024x20000_0_1_2 : S1x1x20000.BroadcastsInDim S2x1024x20000 (![0, 1, 2] : Fin 3 → Fin S2x1024x20000.rank)
  bcast_S2x1024x1_S2x1024x20000_0_1_2 : S2x1024x1.BroadcastsInDim S2x1024x20000 (![0, 1, 2] : Fin 3 → Fin S2x1024x20000.rank)
  bcast_S10000_S1x1x10000_2 : S10000.BroadcastsInDim S1x1x10000 (![2] : Fin 1 → Fin S1x1x10000.rank)
  bcast_S1x1x10000_S2x1024x10000_0_1_2 : S1x1x10000.BroadcastsInDim S2x1024x10000 (![0, 1, 2] : Fin 3 → Fin S2x1024x10000.rank)
  bcast_S2x1024x1_S2x1024x10000_0_1_2 : S2x1024x1.BroadcastsInDim S2x1024x10000 (![0, 1, 2] : Fin 3 → Fin S2x1024x10000.rank)
  concatenates_S2x1024x20000_S2x1024x20000_S2x1024x10000_S2x1024x50000_d2 : Shape.Concatenates [S2x1024x20000, S2x1024x20000, S2x1024x10000] S2x1024x50000 2
  reducesTo_S2x1024x50000_S2x1024_d2 : S2x1024x50000.ReducesTo [2] S2x1024
  h_S_ : 0 < S_.numel
  bcast_S2x1024x1_S2x1024x50000_0_1_2 : S2x1024x1.BroadcastsInDim S2x1024x50000 (![0, 1, 2] : Fin 3 → Fin S2x1024x50000.rank)
  dot_S2x1024x256_S20000x256_S2x1024x20000_2_1_01_0_n_n_wf : DotDims.WF S2x1024x256 S20000x256 S2x1024x20000 [2] [1] [0, 1] [0] [] []
  dot_S2x1024x256_S10000x256_S2x1024x10000_2_1_01_0_n_n_wf : DotDims.WF S2x1024x256 S10000x256 S2x1024x10000 [2] [1] [0, 1] [0] [] []

variable [Facts₀]

def dot_S2x1024x256_S20000x256_S2x1024x20000_2_1_01_0_n_n : DotDims S2x1024x256 S20000x256 S2x1024x20000 where
  lhsContracting := [2]
  rhsContracting := [1]
  lhsNonContracting := [0, 1]
  rhsNonContracting := [0]
  lhsBatch := []
  rhsBatch := []
  wf := dot_S2x1024x256_S20000x256_S2x1024x20000_2_1_01_0_n_n_wf
def dot_S2x1024x256_S10000x256_S2x1024x10000_2_1_01_0_n_n : DotDims S2x1024x256 S10000x256 S2x1024x10000 where
  lhsContracting := [2]
  rhsContracting := [1]
  lhsNonContracting := [0, 1]
  rhsNonContracting := [0]
  lhsBatch := []
  rhsBatch := []
  wf := dot_S2x1024x256_S10000x256_S2x1024x10000_2_1_01_0_n_n_wf

class Facts : Prop extends Facts₀ where

variable [Facts]
-- ==== Proof.OutputBlock.lean ====
/-
  What one grid point leaves in the output's staging buffer, entry by entry.

  The body writes its [16, 50000] output block by three stores: columns 0–19999 (the first cluster's
  log-probabilities), columns 20000–39999 (the second cluster's) and columns 40000–49999 (the third's).  The three
  column ranges are disjoint, so an entry of the block is the entry of the one stored value whose range holds its
  column, at the column's offset inside that range.  Each stored value is a function of the eight input blocks
  alone: the loads that precede the stores read the input buffers whole.
-/
import proofs.«177122_j56908316672215_1_alg».proof.Proof.Gen.KernelIdeal.Frame
import Idealize.ShloMosaic.Lib.Pipeline.Value
import Idealize.ShloMosaic.Lib.WritesUnit
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx

namespace Cert.KernelIdeal.OutputBlock

open Cert.KernelIdeal Cert.KernelIdeal.Gen

variable {F : FTy → Type} [FloatOps F]

theorem hz : (![0, 0] : Fin 2 → Nat) = fun _ => 0 := funext fun a => by fin_cases a <;> rfl

/-- Columns 0–19999 of the block hold the first cluster's stored value. -/
theorem low (c : Dev nD) (i : grid0.Coords) (arg1 : Memref sig .tc .vmem S16x256 .bf16) (harg1 : arg1.IsWhole) (arg2 : Memref sig .tc .vmem S16x1 .i32) (harg2 : arg2.IsWhole) (arg3 : Memref sig .tc .vmem S20000x256 .bf16) (harg3 : arg3.IsWhole) (arg4 : Memref sig .tc .vmem S20000x256 .bf16) (harg4 : arg4.IsWhole) (arg5 : Memref sig .tc .vmem S10000x256 .bf16) (harg5 : arg5.IsWhole) (arg6 : Memref sig .tc .vmem S1x20000 .f32) (harg6 : arg6.IsWhole) (arg7 : Memref sig .tc .vmem S1x20000 .f32) (harg7 : arg7.IsWhole) (arg8 : Memref sig .tc .vmem S1x10000 .f32) (harg8 : arg8.IsWhole) (arg9 : Memref sig .tc .vmem S16x50000 .f32) (harg9 : arg9.IsWhole)
    (x0 : Vec F S16x256 .bf16) (x1 : Vec F S16x1 .i32) (x2 : Vec F S20000x256 .bf16) (x3 : Vec F S20000x256 .bf16) (x4 : Vec F S10000x256 .bf16) (x5 : Vec F S1x20000 .f32) (x6 : Vec F S1x20000 .f32) (x7 : Vec F S1x10000 .f32) (p : Fin 16) (j : Fin 20000) :
    out0_A_8 c i arg1 harg1 arg2 harg2 arg3 harg3 arg4 harg4 arg5 harg5 arg6 harg6 arg7 harg7 arg8 harg8 arg9 harg9 x0 x1 x2 x3 x4 x5 x6 x7 (ix2 p (⟨j.val, by omega⟩ : Fin 50000))
      = k0_pay12 (k0_pay3 x0) (k0_pay4 x1) (k0_pay5 x1) (k0_pay6 x1 x0 x2 x5) (k0_pay7 x0 x3) (k0_pay8 x6) x4 x7 (ix2 p j) := by
  unfold out0_A_8 kernelRun0_A
  dsimp only
  sl_unfold_words
  refine (View.read_writes_cons_unit_of_not_mem VO0_8 _ _ _ _ _ rfl (1 : Fin 2) (Or.inl (by show j.val < 40000; omega))).trans ?_
  refine (View.read_writes_cons_unit_of_not_mem VO0_8 _ _ _ _ _ rfl (1 : Fin 2) (Or.inl (by show j.val < 20000; omega))).trans ?_
  refine (View.read_writes_cons_unit_of_mem VO0_8 _ _ _ _ _ (ix2 p j) rfl (fun a => match a with
    | ⟨0, _⟩ => (Nat.zero_add _).symm
    | ⟨1, _⟩ => (Nat.zero_add _).symm)).trans ?_
  simp only [View.readAt_eq_ld, harg1.read_unread, harg2.read_unread, harg3.read_unread, harg4.read_unread, harg5.read_unread, harg6.read_unread, harg7.read_unread, harg8.read_unread, View.ld_unit_zero (S := S16x256) hz, View.ld_unit_zero (S := S16x1) hz, View.ld_unit_zero (S := S20000x256) hz, View.ld_unit_zero (S := S10000x256) hz, View.ld_unit_zero (S := S1x20000) hz, View.ld_unit_zero (S := S1x10000) hz]

/-- Columns 20000–39999 hold the second cluster's stored value. -/
theorem mid (c : Dev nD) (i : grid0.Coords) (arg1 : Memref sig .tc .vmem S16x256 .bf16) (harg1 : arg1.IsWhole) (arg2 : Memref sig .tc .vmem S16x1 .i32) (harg2 : arg2.IsWhole) (arg3 : Memref sig .tc .vmem S20000x256 .bf16) (harg3 : arg3.IsWhole) (arg4 : Memref sig .tc .vmem S20000x256 .bf16) (harg4 : arg4.IsWhole) (arg5 : Memref sig .tc .vmem S10000x256 .bf16) (harg5 : arg5.IsWhole) (arg6 : Memref sig .tc .vmem S1x20000 .f32) (harg6 : arg6.IsWhole) (arg7 : Memref sig .tc .vmem S1x20000 .f32) (harg7 : arg7.IsWhole) (arg8 : Memref sig .tc .vmem S1x10000 .f32) (harg8 : arg8.IsWhole) (arg9 : Memref sig .tc .vmem S16x50000 .f32) (harg9 : arg9.IsWhole)
    (x0 : Vec F S16x256 .bf16) (x1 : Vec F S16x1 .i32) (x2 : Vec F S20000x256 .bf16) (x3 : Vec F S20000x256 .bf16) (x4 : Vec F S10000x256 .bf16) (x5 : Vec F S1x20000 .f32) (x6 : Vec F S1x20000 .f32) (x7 : Vec F S1x10000 .f32) (p : Fin 16) (j : Fin 20000) :
    out0_A_8 c i arg1 harg1 arg2 harg2 arg3 harg3 arg4 harg4 arg5 harg5 arg6 harg6 arg7 harg7 arg8 harg8 arg9 harg9 x0 x1 x2 x3 x4 x5 x6 x7 (ix2 p (⟨20000 + j.val, by omega⟩ : Fin 50000))
      = k0_pay13 (k0_pay3 x0) (k0_pay4 x1) (k0_pay5 x1) (k0_pay6 x1 x0 x2 x5) (k0_pay7 x0 x3) (k0_pay8 x6) x4 x7 (ix2 p j) := by
  unfold out0_A_8 kernelRun0_A
  dsimp only
  sl_unfold_words
  refine (View.read_writes_cons_unit_of_not_mem VO0_8 _ _ _ _ _ rfl (1 : Fin 2) (Or.inl (by show 20000 + j.val < 40000; omega))).trans ?_
  refine (View.read_writes_cons_unit_of_mem VO0_8 _ _ _ _ _ (ix2 p j) rfl (fun a => match a with
    | ⟨0, _⟩ => (Nat.zero_add _).symm
    | ⟨1, _⟩ => rfl)).trans ?_
  simp only [View.readAt_eq_ld, harg1.read_unread, harg2.read_unread, harg3.read_unread, harg4.read_unread, harg5.read_unread, harg6.read_unread, harg7.read_unread, harg8.read_unread, View.ld_unit_zero (S := S16x256) hz, View.ld_unit_zero (S := S16x1) hz, View.ld_unit_zero (S := S20000x256) hz, View.ld_unit_zero (S := S10000x256) hz, View.ld_unit_zero (S := S1x20000) hz, View.ld_unit_zero (S := S1x10000) hz]

/-- Columns 40000–49999 hold the third cluster's stored value. -/
theorem high (c : Dev nD) (i : grid0.Coords) (arg1 : Memref sig .tc .vmem S16x256 .bf16) (harg1 : arg1.IsWhole) (arg2 : Memref sig .tc .vmem S16x1 .i32) (harg2 : arg2.IsWhole) (arg3 : Memref sig .tc .vmem S20000x256 .bf16) (harg3 : arg3.IsWhole) (arg4 : Memref sig .tc .vmem S20000x256 .bf16) (harg4 : arg4.IsWhole) (arg5 : Memref sig .tc .vmem S10000x256 .bf16) (harg5 : arg5.IsWhole) (arg6 : Memref sig .tc .vmem S1x20000 .f32) (harg6 : arg6.IsWhole) (arg7 : Memref sig .tc .vmem S1x20000 .f32) (harg7 : arg7.IsWhole) (arg8 : Memref sig .tc .vmem S1x10000 .f32) (harg8 : arg8.IsWhole) (arg9 : Memref sig .tc .vmem S16x50000 .f32) (harg9 : arg9.IsWhole)
    (x0 : Vec F S16x256 .bf16) (x1 : Vec F S16x1 .i32) (x2 : Vec F S20000x256 .bf16) (x3 : Vec F S20000x256 .bf16) (x4 : Vec F S10000x256 .bf16) (x5 : Vec F S1x20000 .f32) (x6 : Vec F S1x20000 .f32) (x7 : Vec F S1x10000 .f32) (p : Fin 16) (j : Fin 10000) :
    out0_A_8 c i arg1 harg1 arg2 harg2 arg3 harg3 arg4 harg4 arg5 harg5 arg6 harg6 arg7 harg7 arg8 harg8 arg9 harg9 x0 x1 x2 x3 x4 x5 x6 x7 (ix2 p (⟨40000 + j.val, by omega⟩ : Fin 50000))
      = k0_pay1 (k0_pay10 (k0_pay3 x0) (k0_pay5 x1) x4 x7) (k0_pay11 (k0_pay3 x0) (k0_pay4 x1) (k0_pay5 x1) (k0_pay6 x1 x0 x2 x5) (k0_pay7 x0 x3) (k0_pay8 x6) x4 x7) (ix2 p j) := by
  unfold out0_A_8 kernelRun0_A
  dsimp only
  sl_unfold_words
  refine (View.read_writes_cons_unit_of_mem VO0_8 _ _ _ _ _ (ix2 p j) rfl (fun a => match a with
    | ⟨0, _⟩ => (Nat.zero_add _).symm
    | ⟨1, _⟩ => rfl)).trans ?_
  simp only [View.readAt_eq_ld, harg1.read_unread, harg2.read_unread, harg3.read_unread, harg4.read_unread, harg5.read_unread, harg6.read_unread, harg7.read_unread, harg8.read_unread, View.ld_unit_zero (S := S16x256) hz, View.ld_unit_zero (S := S16x1) hz, View.ld_unit_zero (S := S20000x256) hz, View.ld_unit_zero (S := S10000x256) hz, View.ld_unit_zero (S := S1x20000) hz, View.ld_unit_zero (S := S1x10000) hz]

end Cert.KernelIdeal.OutputBlock

end
-- ==== Proof.LibSoftmaxRow.lean ====
/-
  One row of a softmax over the extended reals, and the two laws that let the normalising factor move.

  For a row of scores `s` the row maximum is the fold of `max` from −∞, the numerator at `c` is
  `exp (s c − max)` and the denominator is the sum of the numerators.  When every score is a real number
  (and the row is not empty) the maximum is attained, so it is real, every numerator is a positive real
  and so is the denominator.  Division by a nonzero real `L` is multiplication by `1 / L` on every
  extended real, hence

    numerator · (1 / denominator) = numerator / denominator,

  and, because multiplication by a nonnegative real distributes over every sum of extended reals,

    (∑ c, numerator c · v c) · (1 / denominator) = ∑ c, (numerator c / denominator) · v c

  for arbitrary extended reals `v c`.  Neither law holds for a zero denominator (there `1 / 0 = +∞` while
  `0 / 0` is not `0 · ∞`), which is why the scores are assumed real.
-/
import Idealize.ShloMosaic.PureOps.Ideal.Laws

noncomputable section

namespace Cert.Softmax

open Idealize.ShloMosaic

variable {ι : Type} [Fintype ι]

/-- A finite sum of reals, read in the extended reals, is the sum of the summands read there. -/
theorem coe_sum (t : Finset ι) (f : ι → ℝ) : ((∑ c ∈ t, f c : ℝ) : EReal) = ∑ c ∈ t, (f c : EReal) := by
  classical
  induction t using Finset.induction_on with
  | empty => simp
  | insert a t ha ih => rw [Finset.sum_insert ha, Finset.sum_insert ha, EReal.coe_add, ih]

/-- Multiplication by a nonnegative real distributes over a finite sum of extended reals. -/
theorem sum_mul_coe (t : Finset ι) (f : ι → EReal) {x : ℝ} (hx : 0 ≤ x) :
    (∑ c ∈ t, f c) * (x : EReal) = ∑ c ∈ t, f c * (x : EReal) := by
  classical
  induction t using Finset.induction_on with
  | empty => simp
  | insert a t ha ih =>
    rw [Finset.sum_insert ha, Finset.sum_insert ha,
      EReal.right_distrib_of_nonneg_of_ne_top (by exact_mod_cast hx) (EReal.coe_ne_top x), ih]

/-- The largest score of the row, starting from −∞. -/
def rowMax (s : ι → EReal) : EReal := Finset.univ.fold max ⊥ s

/-- The softmax numerator: the exponential of the score's distance below the row maximum. -/
def num (s : ι → EReal) (c : ι) : EReal := Ideal.exp (s c - rowMax s)

/-- The softmax denominator: the sum of the row's numerators. -/
def den (s : ι → EReal) : EReal := ∑ c, num s c

variable [Nonempty ι] {s : ι → EReal}

/-- A nonempty row of real scores attains its maximum, which is therefore real. -/
theorem rowMax_real (hs : ∀ c, ∃ r : ℝ, s c = r) : ∃ r : ℝ, rowMax s = r := by
  obtain ⟨c0, -, hc0⟩ := Finset.exists_max_image Finset.univ s Finset.univ_nonempty
  have h : rowMax s = s c0 :=
    le_antisymm ((Finset.fold_max_le _).2 ⟨bot_le, fun c hc => hc0 c hc⟩)
      ((Finset.le_fold_max _).2 (Or.inr ⟨c0, Finset.mem_univ _, le_rfl⟩))
  obtain ⟨r, hr⟩ := hs c0
  exact ⟨r, h.trans hr⟩

/-- Every numerator of a row of real scores is a positive real. -/
theorem num_real (hs : ∀ c, ∃ r : ℝ, s c = r) (c : ι) : ∃ r : ℝ, 0 < r ∧ num s c = r := by
  obtain ⟨a, ha⟩ := hs c
  obtain ⟨b, hb⟩ := rowMax_real hs
  refine ⟨Real.exp (a - b), Real.exp_pos _, ?_⟩
  unfold num
  rw [ha, hb, ← EReal.coe_sub]
  rfl

/-- The denominator of a nonempty row of real scores is a positive real. -/
theorem den_real (hs : ∀ c, ∃ r : ℝ, s c = r) : ∃ L : ℝ, 0 < L ∧ den s = L := by
  choose P hP using num_real hs
  refine ⟨∑ c, P c, Finset.sum_pos (fun c _ => (hP c).1) Finset.univ_nonempty, ?_⟩
  unfold den
  rw [coe_sum]
  exact Finset.sum_congr rfl fun c _ => (hP c).2

/-- A numerator times the reciprocal of the denominator is the numerator divided by the denominator. -/
theorem num_mul_inv_den (hs : ∀ c, ∃ r : ℝ, s c = r) (c : ι) :
    num s c * Ideal.div 1 (den s) = Ideal.div (num s c) (den s) := by
  obtain ⟨L, hL, hden⟩ := den_real hs
  rw [hden, Ideal.div_coe hL.ne', Ideal.div_coe hL.ne', one_mul]

/-- Normalising after the weighted sum is normalising each weight first: the reciprocal of the denominator,
    a nonnegative real, distributes over the sum. -/
theorem sum_mul_inv_den (hs : ∀ c, ∃ r : ℝ, s c = r) (v : ι → EReal) :
    (∑ c, num s c * v c) * Ideal.div 1 (den s) = ∑ c, Ideal.div (num s c) (den s) * v c := by
  obtain ⟨L, hL, hden⟩ := den_real hs
  rw [hden, Ideal.div_coe hL.ne', one_mul, sum_mul_coe _ _ (by positivity : (0 : ℝ) ≤ 1 / L)]
  refine Finset.sum_congr rfl fun c _ => ?_
  rw [Ideal.div_coe hL.ne', mul_right_comm]

end Cert.Softmax

end
-- ==== Proof.RowLaw.lean ====
/-
  One row of a log-softmax whose scores come in three consecutive pieces, over the extended reals.

  A row of `N = n0 + n1 + n2` scores `S` is given together with its three pieces `f0`, `f1`, `f2`
  (`S` at `j`, at `n0 + j` and at `n0 + n1 + j`).  One way to take the log-softmax works piece by piece:
  the row maximum `M` is the maximum of the three pieces' maxima, the normaliser is the sum of the three
  pieces' sums of `exp (score − M)`, and an entry is `score − (M + log normaliser)`.  The other works on the
  whole row: `(score − M) − log (0 + Σ exp (score − M))` with `M` the maximum of the whole row (joined once
  more with −∞).

  The maximum of a row is the maximum of its pieces' maxima, and a sum over a row is the sum of its pieces'
  sums, in any ordered commutative monoid — no finiteness is needed for either.  The last step,
  `a − (M + L) = (a − M) − L`, is where the extended reals differ from the reals: negation distributes over
  `M + L` only when the two are not opposite infinities, which holds as soon as `M` is a real number; and
  the maximum of a nonempty row of real scores is attained, hence real.

  A score itself is `(Σ k, x k · w k + b) · μ`; it is real when `x`, `w`, `b` are, `μ` being a real mask: the 0/1
  value of `lo ≤ t < hi` for the row's target id `t`.
-/
import Idealize.ShloMosaic.PureOps.Ideal.Laws
import proofs.«177122_j56908316672215_1_alg».proof.Proof.LibSoftmaxRow

noncomputable section

namespace Cert.RowLaw

open Idealize.ShloMosaic

/-- The word of −∞ denotes the bottom of the extended reals. -/
theorem ofBits_neg_inf : Ideal.ofBits .f32 0xFF800000#32 = ⊥ := by
  simp [Ideal.ofBits, Ideal.ieee]

/-- A one-bit word widened to 32 bits and read as a signed integer is the bit read as a natural number: the mask
    `0` or `1` whichever way the conversion to a float reads it. -/
theorem toInt_setWidth_bit (b : BitVec 1) : (((b.setWidth 32).toInt : ℝ) : EReal) = ((b.toNat : ℝ) : EReal) := by
  have h : ∀ b : BitVec 1, (b.setWidth 32).toInt = (b.toNat : ℤ) := by decide
  rw [h b, Int.cast_natCast]

/-- The 0/1 mask of a target id against a range `lo ≤ t < hi` (signed), as an extended real. -/
def mask (lo hi t : BitVec 32) : EReal :=
  (((IntOp.andi (IntOp.cmpi .sge t lo) (IntOp.cmpi .slt t hi)).toNat : ℝ) : EReal)

/-- A mask is a real number (0 or 1). -/
theorem mask_real (lo hi t : BitVec 32) : ∃ μ : ℝ, mask lo hi t = μ := ⟨_, rfl⟩

/-- Subtracting `M + L` is subtracting `M` and then `L`, for a REAL `M` and any extended reals `a`, `L`. -/
theorem sub_add_real (a L : EReal) (M : ℝ) : a - ((M : EReal) + L) = (a - (M : EReal)) - L := by
  rw [sub_eq_add_neg, sub_eq_add_neg, sub_eq_add_neg,
    EReal.neg_add (Or.inl (EReal.coe_ne_bot M)) (Or.inl (EReal.coe_ne_top M)), sub_eq_add_neg, add_assoc]

/-- A score is real when its operands are: a finite sum of products of reals, plus a real, times a real. -/
theorem score_real {K : ℕ} (x w : Fin K → EReal) (b : EReal) (μ : ℝ)
    (hx : ∀ k, ∃ r : ℝ, x k = r) (hw : ∀ k, ∃ r : ℝ, w k = r) (hb : ∃ r : ℝ, b = r) :
    ∃ r : ℝ, (∑ k, x k * w k + b) * (μ : EReal) = r := by
  choose X hX using hx
  choose W hW using hw
  obtain ⟨B, rfl⟩ := hb
  refine ⟨(∑ k, X k * W k + B) * μ, ?_⟩
  rw [EReal.coe_mul, EReal.coe_add, Cert.Softmax.coe_sum]
  congr 2
  exact Finset.sum_congr rfl fun k _ => by rw [hX, hW, EReal.coe_mul]

/-- The maximum of three pieces' maxima, each taken from −∞. -/
def pieceMax {n0 n1 n2 : ℕ} (f0 : Fin n0 → EReal) (f1 : Fin n1 → EReal) (f2 : Fin n2 → EReal) : EReal :=
  max (max (Finset.univ.fold max ⊥ f0) (Finset.univ.fold max ⊥ f1)) (Finset.univ.fold max ⊥ f2)

/-- The log-sum-exp of a row given by three pieces, shifted by the pieces' maximum:
    `M + log (Σ₀ exp (f0 − M) + Σ₁ exp (f1 − M) + Σ₂ exp (f2 − M))`. -/
def pieceLse {n0 n1 n2 : ℕ} (f0 : Fin n0 → EReal) (f1 : Fin n1 → EReal) (f2 : Fin n2 → EReal) : EReal :=
  pieceMax f0 f1 f2
    + Ideal.log ((∑ j, Ideal.exp (f0 j - pieceMax f0 f1 f2) + ∑ j, Ideal.exp (f1 j - pieceMax f0 f1 f2))
        + ∑ j, Ideal.exp (f2 j - pieceMax f0 f1 f2))

section Row

variable {n0 n1 n2 N : ℕ} (hN : n0 + n1 + n2 = N)
  (S : Fin N → EReal) (f0 : Fin n0 → EReal) (f1 : Fin n1 → EReal) (f2 : Fin n2 → EReal)
  (h0 : ∀ j : Fin n0, S ⟨j.val, by omega⟩ = f0 j)
  (h1 : ∀ j : Fin n1, S ⟨n0 + j.val, by omega⟩ = f1 j)
  (h2 : ∀ j : Fin n2, S ⟨n0 + n1 + j.val, by omega⟩ = f2 j)

include h0 h1 h2

/-- A sum over the row is the sum of the three pieces' sums. -/
theorem sum_three (g : EReal → EReal) :
    ∑ v, g (S v) = (∑ j, g (f0 j) + ∑ j, g (f1 j)) + ∑ j, g (f2 j) := by
  subst hN
  rw [Fin.sum_univ_add, Fin.sum_univ_add]
  congr 1
  · congr 1
    · exact Finset.sum_congr rfl fun j _ => congrArg g ((congrArg S (Fin.ext rfl)).trans (h0 j))
    · exact Finset.sum_congr rfl fun j _ => congrArg g ((congrArg S (Fin.ext rfl)).trans (h1 j))
  · exact Finset.sum_congr rfl fun j _ => congrArg g ((congrArg S (Fin.ext rfl)).trans (h2 j))

/-- The maximum of the row is the maximum of the three pieces' maxima. -/
theorem max_three :
    Finset.univ.fold max ⊥ S
      = max (max (Finset.univ.fold max ⊥ f0) (Finset.univ.fold max ⊥ f1)) (Finset.univ.fold max ⊥ f2) := by
  apply le_antisymm
  · refine (Finset.fold_max_le _).2 ⟨bot_le, fun v _ => ?_⟩
    by_cases hv0 : v.val < n0
    · refine le_max_of_le_left (le_max_of_le_left ?_)
      rw [show S v = f0 ⟨v.val, hv0⟩ from (congrArg S (Fin.ext rfl)).trans (h0 ⟨v.val, hv0⟩)]
      exact (Finset.le_fold_max _).2 (Or.inr ⟨_, Finset.mem_univ _, le_rfl⟩)
    · by_cases hv1 : v.val < n0 + n1
      · refine le_max_of_le_left (le_max_of_le_right ?_)
        rw [show S v = f1 ⟨v.val - n0, by omega⟩ from
          (congrArg S (Fin.ext (by show v.val = n0 + (v.val - n0); omega))).trans (h1 ⟨v.val - n0, by omega⟩)]
        exact (Finset.le_fold_max _).2 (Or.inr ⟨_, Finset.mem_univ _, le_rfl⟩)
      · refine le_max_of_le_right ?_
        have hv := v.isLt
        rw [show S v = f2 ⟨v.val - (n0 + n1), by omega⟩ from
          (congrArg S (Fin.ext (by show v.val = n0 + n1 + (v.val - (n0 + n1)); omega))).trans
            (h2 ⟨v.val - (n0 + n1), by omega⟩)]
        exact (Finset.le_fold_max _).2 (Or.inr ⟨_, Finset.mem_univ _, le_rfl⟩)
  · refine max_le (max_le ?_ ?_) ?_
    · refine (Finset.fold_max_le _).2 ⟨bot_le, fun j _ => ?_⟩
      rw [← h0 j]; exact (Finset.le_fold_max _).2 (Or.inr ⟨_, Finset.mem_univ _, le_rfl⟩)
    · refine (Finset.fold_max_le _).2 ⟨bot_le, fun j _ => ?_⟩
      rw [← h1 j]; exact (Finset.le_fold_max _).2 (Or.inr ⟨_, Finset.mem_univ _, le_rfl⟩)
    · refine (Finset.fold_max_le _).2 ⟨bot_le, fun j _ => ?_⟩
      rw [← h2 j]; exact (Finset.le_fold_max _).2 (Or.inr ⟨_, Finset.mem_univ _, le_rfl⟩)

/-- **The row law.**  For a nonempty row of real scores, the entry computed piece by piece —
    `a − (M + log (Σ₀ + Σ₁ + Σ₂))` with `M` the maximum of the pieces' maxima — is the entry computed on the
    whole row, `(a − M') − log (0 + Σ)` with `M'` the row's maximum joined with −∞. -/
theorem entry_eq (hpos : 0 < N) (hreal : ∀ v, ∃ r : ℝ, S v = r) (a : EReal) :
    a - (max (max (Finset.univ.fold max ⊥ f0) (Finset.univ.fold max ⊥ f1)) (Finset.univ.fold max ⊥ f2)
          + Ideal.log ((∑ j, Ideal.exp (f0 j
                - max (max (Finset.univ.fold max ⊥ f0) (Finset.univ.fold max ⊥ f1)) (Finset.univ.fold max ⊥ f2))
              + ∑ j, Ideal.exp (f1 j
                - max (max (Finset.univ.fold max ⊥ f0) (Finset.univ.fold max ⊥ f1)) (Finset.univ.fold max ⊥ f2)))
              + ∑ j, Ideal.exp (f2 j
                - max (max (Finset.univ.fold max ⊥ f0) (Finset.univ.fold max ⊥ f1)) (Finset.univ.fold max ⊥ f2))))
      = (a - max ⊥ (Finset.univ.fold max ⊥ S))
          - Ideal.log (0 + ∑ v, Ideal.exp (S v - max ⊥ (Finset.univ.fold max ⊥ S))) := by
  rw [← max_three hN S f0 f1 f2 h0 h1 h2, max_eq_right (bot_le : (⊥ : EReal) ≤ _), zero_add,
    sum_three hN S f0 f1 f2 h0 h1 h2 (fun s => Ideal.exp (s - Finset.univ.fold max ⊥ S))]
  haveI : Nonempty (Fin N) := ⟨⟨0, hpos⟩⟩
  obtain ⟨M, hM⟩ : ∃ r : ℝ, Finset.univ.fold max ⊥ S = r := Cert.Softmax.rowMax_real hreal
  rw [hM]
  exact sub_add_real _ _ M

/-- The row law with the piecewise log-sum-exp named. -/
theorem sub_pieceLse (hpos : 0 < N) (hreal : ∀ v, ∃ r : ℝ, S v = r) (a : EReal) :
    a - pieceLse f0 f1 f2
      = (a - max ⊥ (Finset.univ.fold max ⊥ S))
          - Ideal.log (0 + ∑ v, Ideal.exp (S v - max ⊥ (Finset.univ.fold max ⊥ S))) :=
  entry_eq hN S f0 f1 f2 h0 h1 h2 hpos hreal a

end Row

end Cert.RowLaw

end
-- ==== Proof.LibMatmulLastAxis.lean ====
/-
  A matrix product that contracts the LAST axis of both rank-2 operands (`x @ w.T`: an `M × K` left operand, an
  `N × K` right operand, an `M × N` result, dimension numbers `<[1], [1], [0], [0], [0, 0, 1, 0], [], []>`), read
  at one entry over the extended reals.

  Whatever record of dimension numbers carries those six lists, the left operand is read at row `p` of the result
  index and column `k` of the contraction, the right operand at row `q` and column `k`; the contraction index
  is one coordinate, so the sum over it is a sum over `Fin K`. Into a zero accumulator the product's entry
  `(p, q)` is therefore `∑ k, l (p, k) · r (q, k)`; into any accumulator it is the accumulator's entry plus that
  sum.
-/
import Idealize.ShloMosaic.PureOps.Ideal
import Idealize.ShloMosaic.PureOps.Ideal.Laws
import Idealize.ShloMosaic.Lib.ValueIdx

noncomputable section

namespace Idealize.ShloMosaic.MatmulLastAxis

open Idealize.ShloMosaic Idealize.ShloMosaic.ValueIdx
open scoped BigOperators

variable {M N K : Nat}

/-- The six lists of dimension numbers of `x @ w.T`. -/
structure IsLastAxis (D : DotDims ⟨2, ![M, K]⟩ ⟨2, ![N, K]⟩ ⟨2, ![M, N]⟩) : Prop where
  lc : D.lhsContracting = [1]
  rc : D.rhsContracting = [1]
  ln : D.lhsNonContracting = [0]
  rn : D.rhsNonContracting = [0]
  lb : D.lhsBatch = []
  rb : D.rhsBatch = []

variable {D : DotDims ⟨2, ![M, K]⟩ ⟨2, ![N, K]⟩ ⟨2, ![M, N]⟩}

theorem IsLastAxis.rank_contr (h : IsLastAxis D) : D.contr.rank = 1 := by
  rw [D.rank_contr, h.lc]; rfl

theorem IsLastAxis.size_contr (h : IsLastAxis D) : D.contr.size ⟨0, by rw [h.rank_contr]; exact Nat.one_pos⟩ = K := by
  have e := D.size_contr 0 (by rw [h.lc]; exact Nat.one_pos)
  rw [e]
  simp only [h.lc]
  rfl

/-- The left operand's row is the result's row. -/
theorem IsLastAxis.lhs_row (h : IsLastAxis D) (j : (⟨2, ![M, N]⟩ : Shape).Idx) (k : D.contr.Idx) :
    (D.lhsIdx j k 0).val = (j 0).val := by
  have hb : (0 : Fin (⟨2, ![M, K]⟩ : Shape).rank) ∉ D.lhsBatch := by rw [h.lb]; exact List.not_mem_nil
  have hn : (0 : Fin (⟨2, ![M, K]⟩ : Shape).rank) ∈ D.lhsNonContracting := by rw [h.ln]; exact List.mem_singleton.mpr rfl
  have key : ∀ (a b : Nat) (ha : a < 2) (hb : b < 2), a = b → (j ⟨a, ha⟩).val = (j ⟨b, hb⟩).val :=
    fun a b ha hb e => by subst e; rfl
  unfold DotDims.lhsIdx
  rw [dif_neg hb, dif_pos hn]
  simp only [Fin.val_cast]
  exact key _ _ _ _ (by simp [h.lb, h.ln])

/-- The right operand's row is the result's column. -/
theorem IsLastAxis.rhs_row (h : IsLastAxis D) (j : (⟨2, ![M, N]⟩ : Shape).Idx) (k : D.contr.Idx) :
    (D.rhsIdx j k 0).val = (j 1).val := by
  have hb : (0 : Fin (⟨2, ![N, K]⟩ : Shape).rank) ∉ D.rhsBatch := by rw [h.rb]; exact List.not_mem_nil
  have hn : (0 : Fin (⟨2, ![N, K]⟩ : Shape).rank) ∈ D.rhsNonContracting := by rw [h.rn]; exact List.mem_singleton.mpr rfl
  have key : ∀ (a b : Nat) (ha : a < 2) (hb : b < 2), a = b → (j ⟨a, ha⟩).val = (j ⟨b, hb⟩).val :=
    fun a b ha hb e => by subst e; rfl
  unfold DotDims.rhsIdx
  rw [dif_neg hb, dif_pos hn]
  simp only [Fin.val_cast]
  exact key _ _ _ _ (by simp [h.lb, h.ln, h.rn])

/-- The contraction index is one coordinate below `K`. -/
def IsLastAxis.contrEquiv (h : IsLastAxis D) : D.contr.Idx ≃ Fin K :=
  contrEquiv1 D K h.rank_contr h.size_contr

/-- The two operands' indices at result entry `(p, q)` and contraction coordinate `k`. -/
theorem IsLastAxis.lhsIdx_eq (h : IsLastAxis D) (p : Fin M) (q : Fin N) (k : Fin K) :
    D.lhsIdx (ix2 p q) (h.contrEquiv.symm k) = ix2 p k := by
  funext a
  apply Fin.ext
  match a with
  | ⟨0, _⟩ => exact h.lhs_row (ix2 p q) _
  | ⟨1, _⟩ =>
    show (D.lhsIdx (ix2 p q) (h.contrEquiv.symm k) 1).val = k.val
    rw [D.lhsIdx_val_of_single h.lc]
    exact contrEquiv1_symm_val D K h.rank_contr h.size_contr k

theorem IsLastAxis.rhsIdx_eq (h : IsLastAxis D) (p : Fin M) (q : Fin N) (k : Fin K) :
    D.rhsIdx (ix2 p q) (h.contrEquiv.symm k) = ix2 q k := by
  funext a
  apply Fin.ext
  match a with
  | ⟨0, _⟩ => exact h.rhs_row (ix2 p q) _
  | ⟨1, _⟩ =>
    show (D.rhsIdx (ix2 p q) (h.contrEquiv.symm k) 1).val = k.val
    rw [D.rhsIdx_val_of_single h.rc]
    exact contrEquiv1_symm_val D K h.rank_contr h.size_contr k

/-- The product into an accumulator, read at entry `(p, q)`: the accumulator there plus the sum over the shared last
    axis of the operands' products. -/
theorem matmul_apply (h : IsLastAxis D) {φ₁ φ₂ : FTy} (prec : Option ContractPrecision)
    (l : FVec Ideal ⟨2, ![M, K]⟩ φ₁) (r : FVec Ideal ⟨2, ![N, K]⟩ φ₂) (acc : FVec Ideal ⟨2, ![M, N]⟩ .f32)
    (p : Fin M) (q : Fin N) :
    FloatOps.matmul D prec l r acc (ix2 p q) = acc (ix2 p q) + ∑ k : Fin K, l (ix2 p k) * r (ix2 q k) := by
  rw [Ideal.matmul_apply, ← Equiv.sum_comp h.contrEquiv.symm]
  refine congrArg (acc (ix2 p q) + ·) (Finset.sum_congr rfl fun k _ => ?_)
  rw [h.lhsIdx_eq, h.rhsIdx_eq]

/-- Into the zero accumulator: the sum alone. -/
theorem matmul_zero_apply (h : IsLastAxis D) {φ₁ φ₂ : FTy} (prec : Option ContractPrecision)
    (l : FVec Ideal ⟨2, ![M, K]⟩ φ₁) (r : FVec Ideal ⟨2, ![N, K]⟩ φ₂) (p : Fin M) (q : Fin N) :
    FloatOps.matmul D prec l r (constant ⟨2, ![M, N]⟩ .f32 0x00000000#32) (ix2 p q)
      = ∑ k : Fin K, l (ix2 p k) * r (ix2 q k) := by
  rw [matmul_apply h]
  show Ideal.ofBits .f32 0x00000000#32 + _ = _
  rw [Ideal.ofBits_zero_f32, zero_add]

end Idealize.ShloMosaic.MatmulLastAxis

end
-- ==== Proof.LibColumnLayout.lean ====
/-
  Two layout operations that only move indices, read at an index given by its coordinates: a vector cast to a
  one-column matrix, and a one-column matrix broadcast along its rows.  Together they carry a per-row quantity
  (a row maximum, a row sum, its reciprocal) kept as a `[a, 1]` column back onto every entry of its row.
-/
import Idealize.ShloMosaic.Lib.ValueIdx
import Idealize.ShloMosaic.Lib.Pipeline.Value

noncomputable section

namespace Cert.ColumnLayout

open Idealize.ShloMosaic Idealize.ShloMosaic.ValueIdx

/-- A vector cast to a one-column matrix reads, at `(i, 0)`, the vector at `i`. -/
theorem shapeCast_a_a1_apply {a : ℕ} {α : Type} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A one-column matrix broadcast along its rows reads, at `(i, j)`, the column at `(i, 0)`. -/
theorem broadcastTo_a1_ab_apply {a b : ℕ} {α : Type} (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) :=
  broadcastTo_apply x h _ _ (fun c => match c with
    | ⟨0, _⟩ => by
      show i.val = if a = 1 then 0 else i.val
      have := i.isLt
      split <;> omega
    | ⟨1, _⟩ => by
      show 0 = if (1 : ℕ) = 1 then 0 else j.val
      rw [if_pos rfl])

end Cert.ColumnLayout

end
-- ==== Proof.KernelRow.lean ====
/-
  The kernel body's arithmetic, read one entry at a time over the extended reals.

  For a block of 16 token rows the body computes, per row `p`:
    * three 0/1 masks from the row's target id `t`: `0 ≤ t < 20000`, `20000 ≤ t < 40000`, `40000 ≤ t < 50000`;
    * three pieces of scores, `(Σ k, x p k · w j k + b j) · mask`, one per cluster of the vocabulary — the matrix
      products contract the last axis of both operands, the bias is a row broadcast down the block, the mask a
      column broadcast along it;
    * the row's log-sum-exp `M + log (Σ exp (score − M))`, `M` the maximum of the three pieces' maxima and the
      sum the three pieces' sums added;
    * and stores `score − log-sum-exp` for each piece.
  A lane reduction over the columns is, at row `p`, a fold or a sum over the column coordinate.
-/
import proofs.«177122_j56908316672215_1_alg».proof.Proof.Gen.KernelIdeal.Skeleton
import proofs.«177122_j56908316672215_1_alg».proof.Proof.RowLaw
import proofs.«177122_j56908316672215_1_alg».proof.Proof.LibMatmulLastAxis
import proofs.«177122_j56908316672215_1_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.Row

open Cert.KernelIdeal Cert.KernelIdeal.Gen Cert.RowLaw Cert.ColumnLayout

/-- The index a reduction over the columns inserts at row `p`, column `k`. -/
theorem lift_eq {n : ℕ} (h : (⟨2, ![16, n]⟩ : Shape).Reduces [1] ⟨1, ![16]⟩) (p : Fin 16) (k : Fin n) :
    h.lift (ix1 p) k = ix2 p k :=
  funext fun a => Fin.ext (by match a with | ⟨0, _⟩ => rfl | ⟨1, _⟩ => rfl)

/-- A row's maximum over the columns, from −∞. -/
theorem rowMax_apply {n : ℕ} (v : FVec Ideal ⟨2, ![16, n]⟩ .f32) (h : (⟨2, ![16, n]⟩ : Shape).Reduces [1] ⟨1, ![16]⟩)
    (hφ : FKind.Formats .f32) (hacc : (0xFF800000#32 : BitVec FTy.f32.bits) = FKind.neutral .maximumf .f32 hφ) (p : Fin 16) :
    multiReduction .maximumf [1] ⟨1, ![16]⟩ v 0xFF800000#32 h hφ hacc (ix1 p)
      = Finset.univ.fold max ⊥ (fun j : Fin n => v (ix2 p j)) := by
  refine (Ideal.multiReduction_maximumf_single v 0xFF800000#32 h hφ hacc (ix1 p)).trans ?_
  show Finset.univ.fold max (Ideal.ofBits .f32 0xFF800000#32) _ = _
  rw [ofBits_neg_inf]
  exact congrArg (fun f => Finset.univ.fold max ⊥ f) (funext fun k => congrArg v (lift_eq h p k))

/-- A row's sum over the columns. -/
theorem rowSum_apply {n : ℕ} (v : FVec Ideal ⟨2, ![16, n]⟩ .f32) (h : (⟨2, ![16, n]⟩ : Shape).Reduces [1] ⟨1, ![16]⟩)
    (hφ : FKind.Formats .f32) (hacc : (0x00000000#32 : BitVec FTy.f32.bits) = FKind.neutral .add .f32 hφ) (p : Fin 16) :
    multiReduction .add [1] ⟨1, ![16]⟩ v 0x00000000#32 h hφ hacc (ix1 p) = ∑ j : Fin n, v (ix2 p j) := by
  refine (Ideal.multiReduction_add_single v 0x00000000#32 h hφ hacc (ix1 p)).trans ?_
  exact Finset.sum_congr rfl fun k _ => congrArg v (lift_eq h p k)

/-- The same two facts at the kernel's own shapes, spelt as the printed body spells them. -/
theorem rowMax20000 (v : FVec Ideal S16x20000 .f32) (hφ : FKind.Formats .f32)
    (hacc : (0xFF800000#32 : BitVec 32) = 0xFF800000#32) (p : Fin 16) :
    multiReduction .maximumf [1] S16 v 0xFF800000#32 reduces_S16x20000_S16 hφ hacc (ix1 p)
      = Finset.univ.fold max ⊥ (fun j : Fin 20000 => v (ix2 p j)) := rowMax_apply v _ hφ hacc p
theorem rowMax10000 (v : FVec Ideal S16x10000 .f32) (hφ : FKind.Formats .f32)
    (hacc : (0xFF800000#32 : BitVec 32) = 0xFF800000#32) (p : Fin 16) :
    multiReduction .maximumf [1] S16 v 0xFF800000#32 reduces_S16x10000_S16 hφ hacc (ix1 p)
      = Finset.univ.fold max ⊥ (fun j : Fin 10000 => v (ix2 p j)) := rowMax_apply v _ hφ hacc p
theorem rowSum20000 (v : FVec Ideal S16x20000 .f32) (hφ : FKind.Formats .f32)
    (hacc : (0x00000000#32 : BitVec 32) = 0x00000000#32) (p : Fin 16) :
    multiReduction .add [1] S16 v 0x00000000#32 reduces_S16x20000_S16 hφ hacc (ix1 p) = ∑ j : Fin 20000, v (ix2 p j) :=
  rowSum_apply v _ hφ hacc p
theorem rowSum10000 (v : FVec Ideal S16x10000 .f32) (hφ : FKind.Formats .f32)
    (hacc : (0x00000000#32 : BitVec 32) = 0x00000000#32) (p : Fin 16) :
    multiReduction .add [1] S16 v 0x00000000#32 reduces_S16x10000_S16 hφ hacc (ix1 p) = ∑ j : Fin 10000, v (ix2 p j) :=
  rowSum_apply v _ hφ hacc p

theorem exp_apply {s : Shape} (a : FVec Ideal s .f32) (i : s.Idx) : exp a i = Ideal.exp (a i) := rfl
theorem log_apply {s : Shape} (a : FVec Ideal s .f32) (i : s.Idx) : log a i = Ideal.log (a i) := rfl

/-- A mask column at a row: the comparison of the row's target id, converted to a float. -/
theorem maskCol_apply (t : IVec S16x1 32) (lo hi : BitVec 32) (h : 1 < 32) (i : S16x1.Idx) :
    (sitofp .f32 (extui 32 (andi (cmpi .sge t (broadcast S16x1 lo)) (cmpi .slt t (broadcast S16x1 hi))) h) : FVec Ideal S16x1 .f32) i
      = mask lo hi (t i) :=
  toInt_setWidth_bit _

theorem pay2_eq (x1 : Vec Ideal S16x1 .i32) : k0_pay2 (F := Ideal) x1 = x1 := shapeCast_self _ _
theorem pay3_eq (x0 : Vec Ideal S16x256 .bf16) : k0_pay3 (F := Ideal) x0 = x0 := shapeCast_self _ _
theorem pay8_eq (x6 : Vec Ideal S1x20000 .f32) : k0_pay8 (F := Ideal) x6 = x6 := shapeCast_self _ _

/-- The second cluster's mask. -/
theorem mask_mid (x1 : Vec Ideal S16x1 .i32) (i : S16x1.Idx) :
    k0_pay4 (F := Ideal) x1 i = mask 20000#32 40000#32 (x1 i) := by
  unfold k0_pay4
  rw [pay2_eq]
  exact maskCol_apply x1 _ _ _ i

/-- The third cluster's mask. -/
theorem mask_high (x1 : Vec Ideal S16x1 .i32) (i : S16x1.Idx) :
    k0_pay5 (F := Ideal) x1 i = mask 40000#32 50000#32 (x1 i) := by
  unfold k0_pay5
  rw [pay2_eq]
  exact maskCol_apply x1 _ _ _ i

/-- The first cluster's scores: the product with its weights contracted over the features, plus the bias, times
    the first mask. -/
theorem score_low (x1 : Vec Ideal S16x1 .i32) (x0 : Vec Ideal S16x256 .bf16) (x2 : Vec Ideal S20000x256 .bf16)
    (x5 : Vec Ideal S1x20000 .f32) (p : Fin 16) (j : Fin 20000) :
    k0_pay6 (F := Ideal) x1 x0 x2 x5 (ix2 p j)
      = (∑ k : Fin 256, x0 (ix2 p k) * x2 (ix2 j k) + x5 (ix2 (0 : Fin 1) j))
          * mask 0#32 20000#32 (x1 (ix2 p (0 : Fin 1))) := by
  unfold k0_pay6
  rw [pay2_eq, pay3_eq]
  simp only [shapeCast_self]
  show (_ + _) * _ = _
  refine congrArg₂ (· * ·) (congrArg₂ (· + ·) ?_ ?_) ?_
  · exact MatmulLastAxis.matmul_zero_apply ⟨rfl, rfl, rfl, rfl, rfl, rfl⟩ none x0 x2 p j
  · exact broadcastTo_1b_ab_apply x5 _ p j
  · exact (broadcastTo_a1_ab_apply _ _ p j).trans (maskCol_apply x1 _ _ _ _)

/-- The second cluster's product with its weights. -/
theorem matmul_mid (x0 : Vec Ideal S16x256 .bf16) (x3 : Vec Ideal S20000x256 .bf16) (p : Fin 16) (j : Fin 20000) :
    k0_pay7 (F := Ideal) x0 x3 (ix2 p j) = ∑ k : Fin 256, x0 (ix2 p k) * x3 (ix2 j k) := by
  unfold k0_pay7
  rw [pay3_eq]
  simp only [shapeCast_self]
  exact MatmulLastAxis.matmul_zero_apply ⟨rfl, rfl, rfl, rfl, rfl, rfl⟩ none x0 x3 p j

/-- A product plus the bias row, times the mask column. -/
theorem pay9_apply (v17 : FVec Ideal S16x1 .f32) (v36 : FVec Ideal S16x20000 .f32) (v38 : FVec Ideal S1x20000 .f32)
    (p : Fin 16) (j : Fin 20000) :
    k0_pay9 (F := Ideal) v17 v36 v38 (ix2 p j) = (v36 (ix2 p j) + v38 (ix2 (0 : Fin 1) j)) * v17 (ix2 p (0 : Fin 1)) := by
  unfold k0_pay9
  show (_ + _) * _ = _
  exact congrArg₂ (· * ·) (congrArg₂ (· + ·) rfl (broadcastTo_1b_ab_apply v38 _ p j)) (broadcastTo_a1_ab_apply v17 _ p j)

/-- The second cluster's scores. -/
theorem score_mid (x1 : Vec Ideal S16x1 .i32) (x0 : Vec Ideal S16x256 .bf16) (x3 : Vec Ideal S20000x256 .bf16)
    (x6 : Vec Ideal S1x20000 .f32) (p : Fin 16) (j : Fin 20000) :
    k0_pay9 (F := Ideal) (k0_pay4 x1) (k0_pay7 x0 x3) (k0_pay8 x6) (ix2 p j)
      = (∑ k : Fin 256, x0 (ix2 p k) * x3 (ix2 j k) + x6 (ix2 (0 : Fin 1) j))
          * mask 20000#32 40000#32 (x1 (ix2 p (0 : Fin 1))) := by
  rw [pay9_apply, matmul_mid, pay8_eq, mask_mid]

/-- The third cluster's scores. -/
theorem score_high (x1 : Vec Ideal S16x1 .i32) (x0 : Vec Ideal S16x256 .bf16) (x4 : Vec Ideal S10000x256 .bf16)
    (x7 : Vec Ideal S1x10000 .f32) (p : Fin 16) (j : Fin 10000) :
    k0_pay10 (F := Ideal) (k0_pay3 x0) (k0_pay5 x1) x4 x7 (ix2 p j)
      = (∑ k : Fin 256, x0 (ix2 p k) * x4 (ix2 j k) + x7 (ix2 (0 : Fin 1) j))
          * mask 40000#32 50000#32 (x1 (ix2 p (0 : Fin 1))) := by
  unfold k0_pay10
  rw [pay3_eq]
  simp only [shapeCast_self]
  show (_ + _) * _ = _
  refine congrArg₂ (· * ·) (congrArg₂ (· + ·) ?_ ?_) ?_
  · exact MatmulLastAxis.matmul_zero_apply ⟨rfl, rfl, rfl, rfl, rfl, rfl⟩ none x0 x4 p j
  · exact broadcastTo_1b_ab_apply x7 _ p j
  · exact (broadcastTo_a1_ab_apply _ _ p j).trans (mask_high x1 _)

/-- The log-sum-exp column at a row: the pieces' maximum plus the logarithm of the three pieces' sums of
    exponentials below that maximum. -/
theorem lse_apply (v3 : FVec Ideal S16x256 .bf16) (v17 v24 : FVec Ideal S16x1 .f32) (v33 v36 : FVec Ideal S16x20000 .f32)
    (v38 : FVec Ideal S1x20000 .f32) (v43 : Vec Ideal S10000x256 .bf16) (v46 : Vec Ideal S1x10000 .f32)
    (p : Fin 16) (u : Fin 1) :
    k0_pay11 (F := Ideal) v3 v17 v24 v33 v36 v38 v43 v46 (ix2 p u)
      = pieceLse (fun j : Fin 20000 => v33 (ix2 p j)) (fun j : Fin 20000 => k0_pay9 v17 v36 v38 (ix2 p j))
          (fun j : Fin 10000 => k0_pay10 v3 v24 v43 v46 (ix2 p j)) := by
  unfold k0_pay11 pieceLse pieceMax
  simp only [addf_apply, log_apply, maximumf_apply, shapeCast_a_a1_apply]
  rw [rowSum20000, rowSum20000, rowSum10000]
  simp only [exp_apply, subf_apply, maximumf_apply, shapeCast_a_a1_apply, broadcastTo_a1_ab_apply]
  rw [rowMax20000 v33, rowMax20000 (k0_pay9 v17 v36 v38), rowMax10000 (k0_pay10 v3 v24 v43 v46)]

/-- What is stored for the first cluster: its scores less the row's log-sum-exp. -/
theorem store_low (v3 : FVec Ideal S16x256 .bf16) (v17 v24 : FVec Ideal S16x1 .f32) (v33 v36 : FVec Ideal S16x20000 .f32)
    (v38 : FVec Ideal S1x20000 .f32) (v43 : Vec Ideal S10000x256 .bf16) (v46 : Vec Ideal S1x10000 .f32)
    (p : Fin 16) (j : Fin 20000) :
    k0_pay12 (F := Ideal) v3 v17 v24 v33 v36 v38 v43 v46 (ix2 p j)
      = v33 (ix2 p j) - k0_pay11 v3 v17 v24 v33 v36 v38 v43 v46 (ix2 p (0 : Fin 1)) := by
  unfold k0_pay12
  show _ - _ = _
  exact congrArg₂ (· - ·) rfl (broadcastTo_a1_ab_apply _ _ p j)

/-- What is stored for the second cluster. -/
theorem store_mid (v3 : FVec Ideal S16x256 .bf16) (v17 v24 : FVec Ideal S16x1 .f32) (v33 v36 : FVec Ideal S16x20000 .f32)
    (v38 : FVec Ideal S1x20000 .f32) (v43 : Vec Ideal S10000x256 .bf16) (v46 : Vec Ideal S1x10000 .f32)
    (p : Fin 16) (j : Fin 20000) :
    k0_pay13 (F := Ideal) v3 v17 v24 v33 v36 v38 v43 v46 (ix2 p j)
      = k0_pay9 v17 v36 v38 (ix2 p j) - k0_pay11 v3 v17 v24 v33 v36 v38 v43 v46 (ix2 p (0 : Fin 1)) := by
  unfold k0_pay13
  show _ - _ = _
  exact congrArg₂ (· - ·) rfl (broadcastTo_a1_ab_apply _ _ p j)

/-- What is stored for the third cluster. -/
theorem store_high (v51 : FVec Ideal S16x10000 .f32) (v78 : FVec Ideal S16x1 .f32) (p : Fin 16) (j : Fin 10000) :
    k0_pay1 (F := Ideal) v51 v78 (ix2 p j) = v51 (ix2 p j) - v78 (ix2 p (0 : Fin 1)) := by
  unfold k0_pay1
  show _ - _ = _
  exact congrArg₂ (· - ·) rfl (broadcastTo_a1_ab_apply _ _ p j)

end Cert.KernelIdeal.Row

end
-- ==== Proof.KernelBlocks.lean ====
/-
  The kernel's input blocks, read off the argument arrays.

  The grid has 128 points; at point `t` the activations' window holds rows `16 t … 16 t + 15` of the [2048, 256]
  array (the [2, 1024, 256] argument with its two leading axes merged, its change of float format the identity on
  the extended reals), the targets' window the same rows of the [2048, 1] array of target ids, and the three weight
  matrices and three bias rows are staged whole at every point (the biases as [1, n] rows of the [n] arguments).
  Merging the leading axes keeps the row-major position: row `r = 1024 b + s` of the merged array is token `(b, s)`.
-/
import proofs.«177122_j56908316672215_1_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

open Idealize.ShloMosaic Idealize.ShloMosaic.TcCoe Idealize.SL.Sem Idealize.ShloMosaic.ValueIdx
open Idealize.ShloMosaic.StableHlo

namespace Cert.KernelIdeal.Blocks

open Cert.KernelIdeal Cert.KernelIdeal.Gen

variable (m : (ℓ : Loc nD τ sig) → Buf (Elt Ideal) ℓ)

/-! ## Where each window's block sits at a point -/

theorem idx_rows0 : ∀ t : Fin cfg0.N, win0_0.index t (0 : Fin 2) = t.val ∧ win0_0.index t (1 : Fin 2) = 0 :=
  (by decide +kernel : ∀ t : Fin grid0.N, _)
theorem idx_rows1 : ∀ t : Fin cfg0.N, win0_1.index t (0 : Fin 2) = t.val ∧ win0_1.index t (1 : Fin 2) = 0 :=
  (by decide +kernel : ∀ t : Fin grid0.N, _)
theorem idx_rows8 : ∀ t : Fin cfg0.N, win0_8.index t (0 : Fin 2) = t.val ∧ win0_8.index t (1 : Fin 2) = 0 :=
  (by decide +kernel : ∀ t : Fin grid0.N, _)
theorem idx_whole2 : ∀ t : Fin cfg0.N, win0_2.index t (0 : Fin 2) = 0 ∧ win0_2.index t (1 : Fin 2) = 0 :=
  (by decide +kernel : ∀ t : Fin grid0.N, _)
theorem idx_whole3 : ∀ t : Fin cfg0.N, win0_3.index t (0 : Fin 2) = 0 ∧ win0_3.index t (1 : Fin 2) = 0 :=
  (by decide +kernel : ∀ t : Fin grid0.N, _)
theorem idx_whole4 : ∀ t : Fin cfg0.N, win0_4.index t (0 : Fin 2) = 0 ∧ win0_4.index t (1 : Fin 2) = 0 :=
  (by decide +kernel : ∀ t : Fin grid0.N, _)
theorem idx_whole5 : ∀ t : Fin cfg0.N, win0_5.index t (0 : Fin 2) = 0 ∧ win0_5.index t (1 : Fin 2) = 0 :=
  (by decide +kernel : ∀ t : Fin grid0.N, _)
theorem idx_whole6 : ∀ t : Fin cfg0.N, win0_6.index t (0 : Fin 2) = 0 ∧ win0_6.index t (1 : Fin 2) = 0 :=
  (by decide +kernel : ∀ t : Fin grid0.N, _)
theorem idx_whole7 : ∀ t : Fin cfg0.N, win0_7.index t (0 : Fin 2) = 0 ∧ win0_7.index t (1 : Fin 2) = 0 :=
  (by decide +kernel : ∀ t : Fin grid0.N, _)

/-! ## The blocks at an entry -/

/-- The activations' block at point `t`: rows `16 t + p` of the merged array. -/
theorem iblk0_apply (c : Dev nD) (t : Fin cfg0.N) (p : Fin 16) (k : Fin 256) (r : Fin 2048) (hr : r.val = 16 * t.val + p.val) :
    (iblk m c 0 t : S16x256.Idx → EReal) (ix2 p k) = (V m c main_v1 : S2048x256.Idx → EReal) (ix2 r k) := by
  obtain ⟨h0, h1⟩ := idx_rows0 t
  unfold iblk
  rw [View.read_apply]
  show V m c main_v1 _ = V m c main_v1 _
  congr 1
  funext a
  apply Fin.ext
  match a with
  | ⟨0, _⟩ => show win0_0.index t 0 * 16 + 1 * p.val = r.val; rw [h0]; omega
  | ⟨1, _⟩ => show win0_0.index t 1 * 256 + 1 * k.val = k.val; rw [h1]; omega

/-- The targets' block at point `t`: the same rows of the column of target ids. -/
theorem iblk1_apply (c : Dev nD) (t : Fin cfg0.N) (p : Fin 16) (u : Fin 1) (r : Fin 2048) (hr : r.val = 16 * t.val + p.val) :
    (iblk m c 1 t : S16x1.Idx → BitVec 32) (ix2 p u) = (V m c main_v2 : S2048x1.Idx → BitVec 32) (ix2 r u) := by
  obtain ⟨h0, h1⟩ := idx_rows1 t
  unfold iblk
  rw [View.read_apply]
  show V m c main_v2 _ = V m c main_v2 _
  congr 1
  funext a
  apply Fin.ext
  match a with
  | ⟨0, _⟩ => show win0_1.index t 0 * 16 + 1 * p.val = r.val; rw [h0]; omega
  | ⟨1, _⟩ => show win0_1.index t 1 * 1 + 1 * u.val = u.val; rw [h1]; omega

/-- Window 2's block is its whole array at every point. -/
theorem iblk2_apply (c : Dev nD) (t : Fin cfg0.N) (i : Fin 20000) (k : Fin 256) :
    (iblk m c 2 t : S20000x256.Idx → EReal) (ix2 i k) = (V m c main_v3 : S20000x256.Idx → EReal) (ix2 i k) := by
  obtain ⟨h0, h1⟩ := idx_whole2 t
  unfold iblk
  rw [View.read_apply]
  show V m c main_v3 _ = V m c main_v3 _
  congr 1
  funext a
  apply Fin.ext
  match a with
  | ⟨0, _⟩ => show win0_2.index t 0 * 20000 + 1 * i.val = i.val; rw [h0]; omega
  | ⟨1, _⟩ => show win0_2.index t 1 * 256 + 1 * k.val = k.val; rw [h1]; omega

/-- Window 3's block is its whole array at every point. -/
theorem iblk3_apply (c : Dev nD) (t : Fin cfg0.N) (i : Fin 20000) (k : Fin 256) :
    (iblk m c 3 t : S20000x256.Idx → EReal) (ix2 i k) = (V m c main_v4 : S20000x256.Idx → EReal) (ix2 i k) := by
  obtain ⟨h0, h1⟩ := idx_whole3 t
  unfold iblk
  rw [View.read_apply]
  show V m c main_v4 _ = V m c main_v4 _
  congr 1
  funext a
  apply Fin.ext
  match a with
  | ⟨0, _⟩ => show win0_3.index t 0 * 20000 + 1 * i.val = i.val; rw [h0]; omega
  | ⟨1, _⟩ => show win0_3.index t 1 * 256 + 1 * k.val = k.val; rw [h1]; omega

/-- Window 4's block is its whole array at every point. -/
theorem iblk4_apply (c : Dev nD) (t : Fin cfg0.N) (i : Fin 10000) (k : Fin 256) :
    (iblk m c 4 t : S10000x256.Idx → EReal) (ix2 i k) = (V m c main_v5 : S10000x256.Idx → EReal) (ix2 i k) := by
  obtain ⟨h0, h1⟩ := idx_whole4 t
  unfold iblk
  rw [View.read_apply]
  show V m c main_v5 _ = V m c main_v5 _
  congr 1
  funext a
  apply Fin.ext
  match a with
  | ⟨0, _⟩ => show win0_4.index t 0 * 10000 + 1 * i.val = i.val; rw [h0]; omega
  | ⟨1, _⟩ => show win0_4.index t 1 * 256 + 1 * k.val = k.val; rw [h1]; omega

/-- Window 5's block is its whole array at every point. -/
theorem iblk5_apply (c : Dev nD) (t : Fin cfg0.N) (i : Fin 1) (k : Fin 20000) :
    (iblk m c 5 t : S1x20000.Idx → EReal) (ix2 i k) = (V m c main_v6 : S1x20000.Idx → EReal) (ix2 i k) := by
  obtain ⟨h0, h1⟩ := idx_whole5 t
  unfold iblk
  rw [View.read_apply]
  show V m c main_v6 _ = V m c main_v6 _
  congr 1
  funext a
  apply Fin.ext
  match a with
  | ⟨0, _⟩ => show win0_5.index t 0 * 1 + 1 * i.val = i.val; rw [h0]; omega
  | ⟨1, _⟩ => show win0_5.index t 1 * 20000 + 1 * k.val = k.val; rw [h1]; omega

/-- Window 6's block is its whole array at every point. -/
theorem iblk6_apply (c : Dev nD) (t : Fin cfg0.N) (i : Fin 1) (k : Fin 20000) :
    (iblk m c 6 t : S1x20000.Idx → EReal) (ix2 i k) = (V m c main_v7 : S1x20000.Idx → EReal) (ix2 i k) := by
  obtain ⟨h0, h1⟩ := idx_whole6 t
  unfold iblk
  rw [View.read_apply]
  show V m c main_v7 _ = V m c main_v7 _
  congr 1
  funext a
  apply Fin.ext
  match a with
  | ⟨0, _⟩ => show win0_6.index t 0 * 1 + 1 * i.val = i.val; rw [h0]; omega
  | ⟨1, _⟩ => show win0_6.index t 1 * 20000 + 1 * k.val = k.val; rw [h1]; omega

/-- Window 7's block is its whole array at every point. -/
theorem iblk7_apply (c : Dev nD) (t : Fin cfg0.N) (i : Fin 1) (k : Fin 10000) :
    (iblk m c 7 t : S1x10000.Idx → EReal) (ix2 i k) = (V m c main_v8 : S1x10000.Idx → EReal) (ix2 i k) := by
  obtain ⟨h0, h1⟩ := idx_whole7 t
  unfold iblk
  rw [View.read_apply]
  show V m c main_v8 _ = V m c main_v8 _
  congr 1
  funext a
  apply Fin.ext
  match a with
  | ⟨0, _⟩ => show win0_7.index t 0 * 1 + 1 * i.val = i.val; rw [h0]; omega
  | ⟨1, _⟩ => show win0_7.index t 1 * 10000 + 1 * k.val = k.val; rw [h1]; omega

/-! ## What the region finds in each array: the host operations before it -/

/-- The merged activations at row `r = 1024 b + s` are the argument at token `(b, s)`. -/
theorem V_x (c : Dev nD) (r : Fin 2048) (k : Fin 256) (b : Fin 2) (s : Fin 1024) (h : r.val = 1024 * b.val + s.val) :
    (V m c main_v1 : S2048x256.Idx → EReal) (ix2 r k) = m ((c.tc : Thread nD τ).loc main_arg0) (ix3 b s k) := by
  have e : (V m c main_v1 : S2048x256.Idx → EReal)
      = truncf (F := Ideal) .bf16 (shapeCast S2048x256 (m ((c.tc : Thread nD τ).loc main_arg0)) shapeCasts_S2x1024x256_S2048x256) bitsLt_bf16_f32 := by
    show StableHlo.after hostOps0 (fun b => m (c, b)) (Proc.devRef .tc main_v1) = _
    after_results; rfl
  rw [e]
  show shapeCast S2048x256 _ _ (ix2 r k) = _
  exact shapeCast_apply _ _ _ (ix3 b s k) (by
    rw [Shape.rowMajor_val_three, Shape.rowMajor_val_two]
    show (b.val * 1024 + s.val) * 256 + k.val = r.val * 256 + k.val
    omega)

/-- The merged target ids at row `r = 1024 b + s`. -/
theorem V_t (c : Dev nD) (r : Fin 2048) (u : Fin 1) (b : Fin 2) (s : Fin 1024) (h : r.val = 1024 * b.val + s.val) :
    (V m c main_v2 : S2048x1.Idx → BitVec 32) (ix2 r u) = m ((c.tc : Thread nD τ).loc main_arg1) (ix2 b s) := by
  have e : (V m c main_v2 : S2048x1.Idx → BitVec 32) = shapeCast S2048x1 (m ((c.tc : Thread nD τ).loc main_arg1)) shapeCasts_S2x1024_S2048x1 := by
    show StableHlo.after hostOps0 (fun b => m (c, b)) (Proc.devRef .tc main_v2) = _
    after_results; rfl
  rw [e]
  exact shapeCast_apply _ _ _ (ix2 b s) (by
    rw [Shape.rowMajor_val_two, Shape.rowMajor_val_two]
    show b.val * 1024 + s.val = r.val * 1 + u.val
    have := u.isLt
    omega)

/-- A weight matrix as staged: the argument, its change of float format the identity. -/
theorem V_w0 (c : Dev nD) : (V m c main_v3 : S20000x256.Idx → EReal) = m ((c.tc : Thread nD τ).loc main_arg2) := by
  show StableHlo.after hostOps0 (fun b => m (c, b)) (Proc.devRef .tc main_v3) = _
  after_results; rfl
theorem V_w1 (c : Dev nD) : (V m c main_v4 : S20000x256.Idx → EReal) = m ((c.tc : Thread nD τ).loc main_arg3) := by
  show StableHlo.after hostOps0 (fun b => m (c, b)) (Proc.devRef .tc main_v4) = _
  after_results; rfl
theorem V_w2 (c : Dev nD) : (V m c main_v5 : S10000x256.Idx → EReal) = m ((c.tc : Thread nD τ).loc main_arg4) := by
  show StableHlo.after hostOps0 (fun b => m (c, b)) (Proc.devRef .tc main_v5) = _
  after_results; rfl

/-- A bias as staged: the argument as one row. -/
theorem V_b0 (c : Dev nD) (j : Fin 20000) : (V m c main_v6 : S1x20000.Idx → EReal) (ix2 (0 : Fin 1) j) = m ((c.tc : Thread nD τ).loc main_arg5) (ix1 j) := by
  have e : (V m c main_v6 : S1x20000.Idx → EReal) = shapeCast S1x20000 (m ((c.tc : Thread nD τ).loc main_arg5)) shapeCasts_S20000_S1x20000 := by
    show StableHlo.after hostOps0 (fun b => m (c, b)) (Proc.devRef .tc main_v6) = _
    after_results; rfl
  rw [e]
  exact shapeCast_a_1a_apply _ _ 0 j
theorem V_b1 (c : Dev nD) (j : Fin 20000) : (V m c main_v7 : S1x20000.Idx → EReal) (ix2 (0 : Fin 1) j) = m ((c.tc : Thread nD τ).loc main_arg6) (ix1 j) := by
  have e : (V m c main_v7 : S1x20000.Idx → EReal) = shapeCast S1x20000 (m ((c.tc : Thread nD τ).loc main_arg6)) shapeCasts_S20000_S1x20000 := by
    show StableHlo.after hostOps0 (fun b => m (c, b)) (Proc.devRef .tc main_v7) = _
    after_results; rfl
  rw [e]
  exact shapeCast_a_1a_apply _ _ 0 j
theorem V_b2 (c : Dev nD) (j : Fin 10000) : (V m c main_v8 : S1x10000.Idx → EReal) (ix2 (0 : Fin 1) j) = m ((c.tc : Thread nD τ).loc main_arg7) (ix1 j) := by
  have e : (V m c main_v8 : S1x10000.Idx → EReal) = shapeCast S1x10000 (m ((c.tc : Thread nD τ).loc main_arg7)) shapeCasts_S10000_S1x10000 := by
    show StableHlo.after hostOps0 (fun b => m (c, b)) (Proc.devRef .tc main_v8) = _
    after_results; rfl
  rw [e]
  exact shapeCast_a_1a_apply _ _ 0 j

end Cert.KernelIdeal.Blocks

end
-- ==== Proof.RefRow.lean ====
/-
  The reference, read one entry at a time over the extended reals.

  For token `(b, s)` the reference forms the row of 50000 scores by joining three pieces along the vocabulary
  axis — piece `i` is `(Σ k, x b s k · wᵢ j k + bᵢ j) · maskᵢ`, the mask the 0/1 value of the token's target id
  lying in the cluster's range — and takes jax's log-softmax of the row: `(score − M) − log (0 + Σ exp (score − M))`
  with `M` the row's maximum from −∞, joined once more with −∞.
-/
import proofs.«177122_j56908316672215_1_alg».proof.Proof.RefRead
import proofs.«177122_j56908316672215_1_alg».proof.Proof.RowLaw
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.ReferenceIdeal.Row

open Cert.ReferenceIdeal Cert.ReferenceIdeal.Gen Cert.ReferenceIdeal.Read Cert.RowLaw

variable (x0 : (⟨S2x1024x256, .f32⟩ : BufTy).Contents (Elt Ideal)) (x1 : (⟨S2x1024, .i32⟩ : BufTy).Contents (Elt Ideal))
  (x2 x3 : (⟨S20000x256, .f32⟩ : BufTy).Contents (Elt Ideal)) (x4 : (⟨S10000x256, .f32⟩ : BufTy).Contents (Elt Ideal))
  (x5 x6 : (⟨S20000, .f32⟩ : BufTy).Contents (Elt Ideal)) (x7 : (⟨S10000, .f32⟩ : BufTy).Contents (Elt Ideal))

/-- The joined scores of token `(b, s)`. -/
def scores (b : Fin 2) (s : Fin 1024) (v : Fin 50000) : EReal :=
  val_main_v39 (F := Ideal) x0 x1 x2 x3 x4 x5 x6 x7 (ix3 b s v)

/-- The row's maximum as the log-softmax takes it. -/
theorem rowMax_eq (b : Fin 2) (s : Fin 1024) :
    val_main_call0_v2 (F := Ideal) x0 x1 x2 x3 x4 x5 x6 x7 (ix2 b s) = max ⊥ (Finset.univ.fold max ⊥ (scores x0 x1 x2 x3 x4 x5 x6 x7 b s)) := by
  rw [val_main_call0_v2_apply, val_main_call0_v1_apply, val_main_call0_cst_0_apply]
  show max (Ideal.ofBits .f32 0xFF800000#32) _ = _
  rw [ofBits_neg_inf]
  refine congrArg (max ⊥) ?_
  unfold val_main_call0_v0
  refine (Host.reduce_eq_fold_single FloatOps.maximumf _ _ reducesTo_S2x1024x50000_S2x1024_d2 (by decide) h_S_ (ix2 b s)).trans ?_
  show Finset.univ.fold max (Ideal.ofBits .f32 0xFF800000#32) _ = _
  rw [ofBits_neg_inf]
  exact congrArg (fun f => Finset.univ.fold max ⊥ f) (funext fun k =>
    congrArg (val_main_v39 (F := Ideal) x0 x1 x2 x3 x4 x5 x6 x7) (funext fun a => Fin.ext (by match a with | ⟨0, _⟩ => rfl | ⟨1, _⟩ => rfl | ⟨2, _⟩ => rfl)))

/-- A score less the row's maximum. -/
theorem shifted_apply (b : Fin 2) (s : Fin 1024) (v : Fin 50000) :
    val_main_call0_v5 (F := Ideal) x0 x1 x2 x3 x4 x5 x6 x7 (ix3 b s v)
      = scores x0 x1 x2 x3 x4 x5 x6 x7 b s v - max ⊥ (Finset.univ.fold max ⊥ (scores x0 x1 x2 x3 x4 x5 x6 x7 b s)) := by
  have e : idx_main_call0_v3 (idx_main_call0_v4 (ix3 b s v)) = ix2 b s := funext fun a => Fin.ext (by match a with | ⟨0, _⟩ => rfl | ⟨1, _⟩ => rfl)
  rw [val_main_call0_v5_apply, val_main_call0_v4_apply, val_main_call0_v3_apply, e, rowMax_eq]
  rfl

/-- The row's sum of exponentials as the log-softmax takes it: from the zero word. -/
theorem sumexp_eq (b : Fin 2) (s : Fin 1024) :
    val_main_call0_v7 (F := Ideal) x0 x1 x2 x3 x4 x5 x6 x7 (ix2 b s)
      = 0 + ∑ k, Ideal.exp (scores x0 x1 x2 x3 x4 x5 x6 x7 b s k - max ⊥ (Finset.univ.fold max ⊥ (scores x0 x1 x2 x3 x4 x5 x6 x7 b s))) := by
  have e7 : ∀ k : Fin 50000, idx_main_call0_v7 (ix2 b s) k = ix3 b s k := fun k => funext fun a => Fin.ext (by match a with | ⟨0, _⟩ => rfl | ⟨1, _⟩ => rfl | ⟨2, _⟩ => rfl)
  rw [val_main_call0_v7_apply]
  show Ideal.ofBits .f32 0x00000000#32 + _ = _
  rw [Ideal.ofBits_zero_f32]
  refine congrArg (fun z => 0 + z) (Finset.sum_congr rfl fun k _ => ?_)
  rw [e7 k, val_main_call0_v6_apply, shifted_apply]
  rfl

/-- The logarithm of that sum, broadcast back along the row. -/
theorem logsum_eq (b : Fin 2) (s : Fin 1024) (v : Fin 50000) :
    val_main_call0_v10 (F := Ideal) x0 x1 x2 x3 x4 x5 x6 x7 (ix3 b s v)
      = Ideal.log (val_main_call0_v7 (F := Ideal) x0 x1 x2 x3 x4 x5 x6 x7 (ix2 b s)) := by
  have e8 : idx_main_call0_v8 (idx_main_call0_v10 (ix3 b s v)) = ix2 b s := funext fun a => Fin.ext (by match a with | ⟨0, _⟩ => rfl | ⟨1, _⟩ => rfl)
  rw [val_main_call0_v10_apply, val_main_call0_v9_apply, val_main_call0_v8_apply, e8]
  exact Ideal.hostUnary_log_def (φ := .f32) _

/-- The reference's result at token `(b, s)`, vocabulary entry `v`. -/
theorem out_apply (b : Fin 2) (s : Fin 1024) (v : Fin 50000) :
    val_main_v40 (F := Ideal) x0 x1 x2 x3 x4 x5 x6 x7 (ix3 b s v)
      = (scores x0 x1 x2 x3 x4 x5 x6 x7 b s v - max ⊥ (Finset.univ.fold max ⊥ (scores x0 x1 x2 x3 x4 x5 x6 x7 b s)))
          - Ideal.log (0 + ∑ k, Ideal.exp (scores x0 x1 x2 x3 x4 x5 x6 x7 b s k - max ⊥ (Finset.univ.fold max ⊥ (scores x0 x1 x2 x3 x4 x5 x6 x7 b s)))) := by
  rw [val_main_v40_apply, shifted_apply, logsum_eq, sumexp_eq]
  exact Ideal.subf_def (φ := .f32) _ _

/-- Columns 0–19999 of the row are the first cluster's piece. -/
theorem scores_low (b : Fin 2) (s : Fin 1024) (j : Fin 20000) :
    scores x0 x1 x2 x3 x4 x5 x6 x7 b s (⟨j.val, by omega⟩ : Fin 50000) = val_main_v12 (F := Ideal) x0 x1 x2 x5 (ix3 b s j) := by
  unfold scores val_main_v39
  exact concatenate_apply_piece (t := S2x1024x50000) (2 : Fin 3) [⟨S2x1024x20000, val_main_v12 (F := Ideal) x0 x1 x2 x5⟩, ⟨S2x1024x20000, val_main_v25 (F := Ideal) x0 x1 x3 x6⟩, ⟨S2x1024x10000, val_main_v38 (F := Ideal) x0 x1 x4 x7⟩] concatenates_S2x1024x20000_S2x1024x20000_S2x1024x10000_S2x1024x50000_d2 _ 0 (by show 0 < 3; omega) _ _ rfl rfl 0 rfl (ix3 b s j)
    (fun a ha => by
      match a with
      | ⟨0, _⟩ => rfl
      | ⟨1, _⟩ => rfl
      | ⟨2, _⟩ => exact absurd rfl ha)
    (Nat.zero_add _)

/-- Columns 20000–39999 are the second cluster's piece. -/
theorem scores_mid (b : Fin 2) (s : Fin 1024) (j : Fin 20000) :
    scores x0 x1 x2 x3 x4 x5 x6 x7 b s (⟨20000 + j.val, by omega⟩ : Fin 50000) = val_main_v25 (F := Ideal) x0 x1 x3 x6 (ix3 b s j) := by
  unfold scores val_main_v39
  exact concatenate_apply_piece (t := S2x1024x50000) (2 : Fin 3) [⟨S2x1024x20000, val_main_v12 (F := Ideal) x0 x1 x2 x5⟩, ⟨S2x1024x20000, val_main_v25 (F := Ideal) x0 x1 x3 x6⟩, ⟨S2x1024x10000, val_main_v38 (F := Ideal) x0 x1 x4 x7⟩] concatenates_S2x1024x20000_S2x1024x20000_S2x1024x10000_S2x1024x50000_d2 _ 1 (by show 1 < 3; omega) _ _ rfl rfl 20000 rfl (ix3 b s j)
    (fun a ha => by
      match a with
      | ⟨0, _⟩ => rfl
      | ⟨1, _⟩ => rfl
      | ⟨2, _⟩ => exact absurd rfl ha)
    rfl

/-- Columns 40000–49999 are the third cluster's piece. -/
theorem scores_high (b : Fin 2) (s : Fin 1024) (j : Fin 10000) :
    scores x0 x1 x2 x3 x4 x5 x6 x7 b s (⟨40000 + j.val, by omega⟩ : Fin 50000) = val_main_v38 (F := Ideal) x0 x1 x4 x7 (ix3 b s j) := by
  unfold scores val_main_v39
  exact concatenate_apply_piece (t := S2x1024x50000) (2 : Fin 3) [⟨S2x1024x20000, val_main_v12 (F := Ideal) x0 x1 x2 x5⟩, ⟨S2x1024x20000, val_main_v25 (F := Ideal) x0 x1 x3 x6⟩, ⟨S2x1024x10000, val_main_v38 (F := Ideal) x0 x1 x4 x7⟩] concatenates_S2x1024x20000_S2x1024x20000_S2x1024x10000_S2x1024x50000_d2 _ 2 (by show 2 < 3; omega) _ _ rfl rfl 40000 rfl (ix3 b s j)
    (fun a ha => by
      match a with
      | ⟨0, _⟩ => rfl
      | ⟨1, _⟩ => rfl
      | ⟨2, _⟩ => exact absurd rfl ha)
    rfl

/-- The first cluster's score at a token: the contraction over the features, plus the bias, times the mask. -/
theorem piece_low (b : Fin 2) (s : Fin 1024) (j : Fin 20000) :
    val_main_v12 (F := Ideal) x0 x1 x2 x5 (ix3 b s j)
      = (∑ k : Fin 256, x0 (ix3 b s k) * x2 (ix2 j k) + x5 (ix1 j)) * mask 0#32 20000#32 (x1 (ix2 b s)) := by
  have el : ∀ k : Fin 256, lidx_main_v7 (ix3 b s j) k = ix3 b s k := fun k => funext fun a => Fin.ext (by match a with | ⟨0, _⟩ => rfl | ⟨1, _⟩ => rfl | ⟨2, _⟩ => rfl)
  have er : ∀ k : Fin 256, ridx_main_v7 (ix3 b s j) k = ix2 j k := fun k => funext fun a => Fin.ext (by match a with | ⟨0, _⟩ => rfl | ⟨1, _⟩ => rfl)
  have eb : idx_main_v8 (idx_main_v9 (ix3 b s j)) = ix1 j := funext fun a => Fin.ext (by match a with | ⟨0, _⟩ => rfl)
  have em : idx_main_v6 (idx_main_v11 (ix3 b s j)) = ix2 b s := funext fun a => Fin.ext (by match a with | ⟨0, _⟩ => rfl | ⟨1, _⟩ => rfl)
  rw [val_main_v12_apply, val_main_v10_apply, val_main_v7_apply, val_main_v9_apply, val_main_v8_apply, eb, val_main_v11_apply,
    val_main_v6_apply, em, val_main_v5_apply, val_main_v4_apply, val_main_v1_apply, val_main_v3_apply, val_main_v0_apply,
    val_main_v2_apply, val_main_c_apply, val_main_c_0_apply]
  simp only [el, er]
  rfl

/-- The second cluster's score at a token. -/
theorem piece_mid (b : Fin 2) (s : Fin 1024) (j : Fin 20000) :
    val_main_v25 (F := Ideal) x0 x1 x3 x6 (ix3 b s j)
      = (∑ k : Fin 256, x0 (ix3 b s k) * x3 (ix2 j k) + x6 (ix1 j)) * mask 20000#32 40000#32 (x1 (ix2 b s)) := by
  have el : ∀ k : Fin 256, lidx_main_v20 (ix3 b s j) k = ix3 b s k := fun k => funext fun a => Fin.ext (by match a with | ⟨0, _⟩ => rfl | ⟨1, _⟩ => rfl | ⟨2, _⟩ => rfl)
  have er : ∀ k : Fin 256, ridx_main_v20 (ix3 b s j) k = ix2 j k := fun k => funext fun a => Fin.ext (by match a with | ⟨0, _⟩ => rfl | ⟨1, _⟩ => rfl)
  have eb : idx_main_v21 (idx_main_v22 (ix3 b s j)) = ix1 j := funext fun a => Fin.ext (by match a with | ⟨0, _⟩ => rfl)
  have em : idx_main_v19 (idx_main_v24 (ix3 b s j)) = ix2 b s := funext fun a => Fin.ext (by match a with | ⟨0, _⟩ => rfl | ⟨1, _⟩ => rfl)
  rw [val_main_v25_apply, val_main_v23_apply, val_main_v20_apply, val_main_v22_apply, val_main_v21_apply, eb, val_main_v24_apply,
    val_main_v19_apply, em, val_main_v18_apply, val_main_v17_apply, val_main_v14_apply, val_main_v16_apply, val_main_v13_apply,
    val_main_v15_apply, val_main_c_1_apply, val_main_c_2_apply]
  simp only [el, er]
  rfl

/-- The third cluster's score at a token. -/
theorem piece_high (b : Fin 2) (s : Fin 1024) (j : Fin 10000) :
    val_main_v38 (F := Ideal) x0 x1 x4 x7 (ix3 b s j)
      = (∑ k : Fin 256, x0 (ix3 b s k) * x4 (ix2 j k) + x7 (ix1 j)) * mask 40000#32 50000#32 (x1 (ix2 b s)) := by
  have el : ∀ k : Fin 256, lidx_main_v33 (ix3 b s j) k = ix3 b s k := fun k => funext fun a => Fin.ext (by match a with | ⟨0, _⟩ => rfl | ⟨1, _⟩ => rfl | ⟨2, _⟩ => rfl)
  have er : ∀ k : Fin 256, ridx_main_v33 (ix3 b s j) k = ix2 j k := fun k => funext fun a => Fin.ext (by match a with | ⟨0, _⟩ => rfl | ⟨1, _⟩ => rfl)
  have eb : idx_main_v34 (idx_main_v35 (ix3 b s j)) = ix1 j := funext fun a => Fin.ext (by match a with | ⟨0, _⟩ => rfl)
  have em : idx_main_v32 (idx_main_v37 (ix3 b s j)) = ix2 b s := funext fun a => Fin.ext (by match a with | ⟨0, _⟩ => rfl | ⟨1, _⟩ => rfl)
  rw [val_main_v38_apply, val_main_v36_apply, val_main_v33_apply, val_main_v35_apply, val_main_v34_apply, eb, val_main_v37_apply,
    val_main_v32_apply, em, val_main_v31_apply, val_main_v30_apply, val_main_v27_apply, val_main_v29_apply, val_main_v26_apply,
    val_main_v28_apply, val_main_c_3_apply, val_main_c_4_apply]
  simp only [el, er]
  rfl

end Cert.ReferenceIdeal.Row

end
-- ==== Proof.KernelEntry.lean ====
/-
  One entry of the kernel's output block, first as a function of the argument arrays, then as the reference's entry.

  Row `p` of the block at grid point `t` is row `r = 16 t + p` of the merged arrays, that is token `(b, s)` with
  `r = 1024 b + s`.  Its three pieces of scores are the reference's three pieces for that token — the same
  contraction over the 256 features, the same bias, the same mask of the token's target id — so the entry the kernel
  stores, `score − (M + log (Σ₀ + Σ₁ + Σ₂))`, is the reference's `(score − M) − log (0 + Σ)` by the row law; that law
  needs the row's maximum to be a real number, which holds because every argument entry is real.
-/
import proofs.«177122_j56908316672215_1_alg».proof.Proof.OutputBlock
import proofs.«177122_j56908316672215_1_alg».proof.Proof.KernelRow
import proofs.«177122_j56908316672215_1_alg».proof.Proof.KernelBlocks
import proofs.«177122_j56908316672215_1_alg».proof.Proof.RefRow

noncomputable section

open Idealize.ShloMosaic Idealize.ShloMosaic.TcCoe Idealize.SL.Sem Idealize.ShloMosaic.ValueIdx

namespace Cert.KernelIdeal.Entry

open Cert.KernelIdeal Cert.KernelIdeal.Gen Cert.RowLaw

variable (m : (ℓ : Loc nD τ sig) → Buf (Elt Ideal) ℓ)

/-- The argument arrays as plain functions of their indices. -/
abbrev aX (c : Dev nD) : S2x1024x256.Idx → EReal := m ((c.tc : Thread nD τ).loc main_arg0)
abbrev aT (c : Dev nD) : S2x1024.Idx → BitVec 32 := m ((c.tc : Thread nD τ).loc main_arg1)
abbrev aW0 (c : Dev nD) : S20000x256.Idx → EReal := m ((c.tc : Thread nD τ).loc main_arg2)
abbrev aW1 (c : Dev nD) : S20000x256.Idx → EReal := m ((c.tc : Thread nD τ).loc main_arg3)
abbrev aW2 (c : Dev nD) : S10000x256.Idx → EReal := m ((c.tc : Thread nD τ).loc main_arg4)
abbrev aB0 (c : Dev nD) : S20000.Idx → EReal := m ((c.tc : Thread nD τ).loc main_arg5)
abbrev aB1 (c : Dev nD) : S20000.Idx → EReal := m ((c.tc : Thread nD τ).loc main_arg6)
abbrev aB2 (c : Dev nD) : S10000.Idx → EReal := m ((c.tc : Thread nD τ).loc main_arg7)

/-- The first cluster's scores of token `(b, s)`, from the argument arrays. -/
def sc0 (c : Dev nD) (b : Fin 2) (s : Fin 1024) (j : Fin 20000) : EReal :=
  (∑ k : Fin 256, (aX m c) (ix3 b s k) * (aW0 m c) (ix2 j k)
      + (aB0 m c) (ix1 j))
    * mask 0#32 20000#32 ((aT m c) (ix2 b s))
/-- The second cluster's. -/
def sc1 (c : Dev nD) (b : Fin 2) (s : Fin 1024) (j : Fin 20000) : EReal :=
  (∑ k : Fin 256, (aX m c) (ix3 b s k) * (aW1 m c) (ix2 j k)
      + (aB1 m c) (ix1 j))
    * mask 20000#32 40000#32 ((aT m c) (ix2 b s))
/-- The third cluster's. -/
def sc2 (c : Dev nD) (b : Fin 2) (s : Fin 1024) (j : Fin 10000) : EReal :=
  (∑ k : Fin 256, (aX m c) (ix3 b s k) * (aW2 m c) (ix2 j k)
      + (aB2 m c) (ix1 j))
    * mask 40000#32 50000#32 ((aT m c) (ix2 b s))

/-! ## The block's pieces, from the argument arrays -/

theorem piece0 (c : Dev nD) (t : Fin cfg0.N) (p : Fin 16) (r : Fin 2048) (b : Fin 2) (s : Fin 1024)
    (hr : r.val = 16 * t.val + p.val) (hbs : r.val = 1024 * b.val + s.val) (j : Fin 20000) :
    k0_pay6 (F := Ideal) (iblk m c 1 t) (iblk m c 0 t) (iblk m c 2 t) (iblk m c 5 t) (ix2 p j) = sc0 m c b s j := by
  refine (Row.score_low (iblk m c 1 t) (iblk m c 0 t) (iblk m c 2 t) (iblk m c 5 t) p j).trans ?_
  unfold sc0
  refine congrArg₂ (· * ·) (congrArg₂ (· + ·) (Finset.sum_congr rfl fun k _ => congrArg₂ (· * ·) ?_ ?_) ?_) ?_
  · exact (Blocks.iblk0_apply m c t p k r hr).trans (Blocks.V_x m c r k b s hbs)
  · exact (Blocks.iblk2_apply m c t j k).trans (congrFun (Blocks.V_w0 m c) _)
  · exact (Blocks.iblk5_apply m c t 0 j).trans (Blocks.V_b0 m c j)
  · exact congrArg (mask _ _) ((Blocks.iblk1_apply m c t p 0 r hr).trans (Blocks.V_t m c r 0 b s hbs))

theorem piece1 (c : Dev nD) (t : Fin cfg0.N) (p : Fin 16) (r : Fin 2048) (b : Fin 2) (s : Fin 1024)
    (hr : r.val = 16 * t.val + p.val) (hbs : r.val = 1024 * b.val + s.val) (j : Fin 20000) :
    k0_pay9 (F := Ideal) (k0_pay4 (iblk m c 1 t)) (k0_pay7 (iblk m c 0 t) (iblk m c 3 t)) (k0_pay8 (iblk m c 6 t)) (ix2 p j) = sc1 m c b s j := by
  refine (Row.score_mid (iblk m c 1 t) (iblk m c 0 t) (iblk m c 3 t) (iblk m c 6 t) p j).trans ?_
  unfold sc1
  refine congrArg₂ (· * ·) (congrArg₂ (· + ·) (Finset.sum_congr rfl fun k _ => congrArg₂ (· * ·) ?_ ?_) ?_) ?_
  · exact (Blocks.iblk0_apply m c t p k r hr).trans (Blocks.V_x m c r k b s hbs)
  · exact (Blocks.iblk3_apply m c t j k).trans (congrFun (Blocks.V_w1 m c) _)
  · exact (Blocks.iblk6_apply m c t 0 j).trans (Blocks.V_b1 m c j)
  · exact congrArg (mask _ _) ((Blocks.iblk1_apply m c t p 0 r hr).trans (Blocks.V_t m c r 0 b s hbs))

theorem piece2 (c : Dev nD) (t : Fin cfg0.N) (p : Fin 16) (r : Fin 2048) (b : Fin 2) (s : Fin 1024)
    (hr : r.val = 16 * t.val + p.val) (hbs : r.val = 1024 * b.val + s.val) (j : Fin 10000) :
    k0_pay10 (F := Ideal) (k0_pay3 (iblk m c 0 t)) (k0_pay5 (iblk m c 1 t)) (iblk m c 4 t) (iblk m c 7 t) (ix2 p j) = sc2 m c b s j := by
  refine (Row.score_high (iblk m c 1 t) (iblk m c 0 t) (iblk m c 4 t) (iblk m c 7 t) p j).trans ?_
  unfold sc2
  refine congrArg₂ (· * ·) (congrArg₂ (· + ·) (Finset.sum_congr rfl fun k _ => congrArg₂ (· * ·) ?_ ?_) ?_) ?_
  · exact (Blocks.iblk0_apply m c t p k r hr).trans (Blocks.V_x m c r k b s hbs)
  · exact (Blocks.iblk4_apply m c t j k).trans (congrFun (Blocks.V_w2 m c) _)
  · exact (Blocks.iblk7_apply m c t 0 j).trans (Blocks.V_b2 m c j)
  · exact congrArg (mask _ _) ((Blocks.iblk1_apply m c t p 0 r hr).trans (Blocks.V_t m c r 0 b s hbs))

theorem pieceLse_congr {n0 n1 n2 : ℕ} {f0 g0 : Fin n0 → EReal} {f1 g1 : Fin n1 → EReal} {f2 g2 : Fin n2 → EReal}
    (h0 : f0 = g0) (h1 : f1 = g1) (h2 : f2 = g2) : pieceLse f0 f1 f2 = pieceLse g0 g1 g2 := by
  subst h0 h1 h2; rfl

/-- The row's log-sum-exp column, from the argument arrays. -/
theorem lse_row (c : Dev nD) (t : Fin cfg0.N) (p : Fin 16) (r : Fin 2048) (b : Fin 2) (s : Fin 1024)
    (hr : r.val = 16 * t.val + p.val) (hbs : r.val = 1024 * b.val + s.val) :
    k0_pay11 (F := Ideal) (k0_pay3 (iblk m c 0 t)) (k0_pay4 (iblk m c 1 t)) (k0_pay5 (iblk m c 1 t)) (k0_pay6 (iblk m c 1 t) (iblk m c 0 t) (iblk m c 2 t) (iblk m c 5 t)) (k0_pay7 (iblk m c 0 t) (iblk m c 3 t)) (k0_pay8 (iblk m c 6 t)) (iblk m c 4 t) (iblk m c 7 t) (ix2 p (0 : Fin 1))
      = pieceLse (sc0 m c b s) (sc1 m c b s) (sc2 m c b s) := by
  refine (Row.lse_apply _ _ _ _ _ _ _ _ p 0).trans ?_
  exact pieceLse_congr (funext fun j => piece0 m c t p r b s hr hbs j) (funext fun j => piece1 m c t p r b s hr hbs j)
    (funext fun j => piece2 m c t p r b s hr hbs j)

/-! ## The block's entries, from the argument arrays -/

theorem entry_low (c : Dev nD) (t : Fin cfg0.N) (p : Fin 16) (r : Fin 2048) (b : Fin 2) (s : Fin 1024)
    (hr : r.val = 16 * t.val + p.val) (hbs : r.val = 1024 * b.val + s.val) (j : Fin 20000) :
    outsAt0 m c t (ix2 p (⟨j.val, by omega⟩ : Fin 50000))
      = sc0 m c b s j - pieceLse (sc0 m c b s) (sc1 m c b s) (sc2 m c b s) := by
  unfold outsAt0
  refine (OutputBlock.low c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t) (iblk m c 6 t) (iblk m c 7 t) p j).trans ?_
  refine (Row.store_low _ _ _ _ _ _ _ _ p j).trans ?_
  exact congrArg₂ (· - ·) (piece0 m c t p r b s hr hbs j) (lse_row m c t p r b s hr hbs)

theorem entry_mid (c : Dev nD) (t : Fin cfg0.N) (p : Fin 16) (r : Fin 2048) (b : Fin 2) (s : Fin 1024)
    (hr : r.val = 16 * t.val + p.val) (hbs : r.val = 1024 * b.val + s.val) (j : Fin 20000) :
    outsAt0 m c t (ix2 p (⟨20000 + j.val, by omega⟩ : Fin 50000))
      = sc1 m c b s j - pieceLse (sc0 m c b s) (sc1 m c b s) (sc2 m c b s) := by
  unfold outsAt0
  refine (OutputBlock.mid c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t) (iblk m c 6 t) (iblk m c 7 t) p j).trans ?_
  refine (Row.store_mid _ _ _ _ _ _ _ _ p j).trans ?_
  exact congrArg₂ (· - ·) (piece1 m c t p r b s hr hbs j) (lse_row m c t p r b s hr hbs)

theorem entry_high (c : Dev nD) (t : Fin cfg0.N) (p : Fin 16) (r : Fin 2048) (b : Fin 2) (s : Fin 1024)
    (hr : r.val = 16 * t.val + p.val) (hbs : r.val = 1024 * b.val + s.val) (j : Fin 10000) :
    outsAt0 m c t (ix2 p (⟨40000 + j.val, by omega⟩ : Fin 50000))
      = sc2 m c b s j - pieceLse (sc0 m c b s) (sc1 m c b s) (sc2 m c b s) := by
  unfold outsAt0
  refine (OutputBlock.high c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t) (iblk m c 6 t) (iblk m c 7 t) p j).trans ?_
  refine (Row.store_high _ _ p j).trans ?_
  exact congrArg₂ (· - ·) (piece2 m c t p r b s hr hbs j) (lse_row m c t p r b s hr hbs)

/-! ## The reference's result at the same token -/

/-- The reference's result array as a function of the kernel's argument arrays. -/
abbrev refOut (c : Dev nD) : Cert.ReferenceIdeal.S2x1024x50000.Idx → EReal :=
  Cert.ReferenceIdeal.Read.val_main_v40 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

/-- The reference's joined scores of a token, over the kernel's argument arrays. -/
abbrev refScores (c : Dev nD) (b : Fin 2) (s : Fin 1024) : Fin 50000 → EReal :=
  Cert.ReferenceIdeal.Row.scores (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) b s

theorem ref_low (c : Dev nD) (b : Fin 2) (s : Fin 1024) (j : Fin 20000) :
    refScores m c b s ⟨j.val, by omega⟩ = sc0 m c b s j :=
  (Cert.ReferenceIdeal.Row.scores_low (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) b s j).trans
    (Cert.ReferenceIdeal.Row.piece_low (m ((c.tc : Thread nD τ).loc main_arg0)) (m ((c.tc : Thread nD τ).loc main_arg1)) (m ((c.tc : Thread nD τ).loc main_arg2)) (m ((c.tc : Thread nD τ).loc main_arg5)) b s j)
theorem ref_mid (c : Dev nD) (b : Fin 2) (s : Fin 1024) (j : Fin 20000) :
    refScores m c b s ⟨20000 + j.val, by omega⟩ = sc1 m c b s j :=
  (Cert.ReferenceIdeal.Row.scores_mid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) b s j).trans
    (Cert.ReferenceIdeal.Row.piece_mid (m ((c.tc : Thread nD τ).loc main_arg0)) (m ((c.tc : Thread nD τ).loc main_arg1)) (m ((c.tc : Thread nD τ).loc main_arg3)) (m ((c.tc : Thread nD τ).loc main_arg6)) b s j)
theorem ref_high (c : Dev nD) (b : Fin 2) (s : Fin 1024) (j : Fin 10000) :
    refScores m c b s ⟨20000 + 20000 + j.val, by omega⟩ = sc2 m c b s j :=
  (congrArg (refScores m c b s) (Fin.ext (by show 20000 + 20000 + j.val = 40000 + j.val; omega))).trans
    ((Cert.ReferenceIdeal.Row.scores_high (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) b s j).trans
      (Cert.ReferenceIdeal.Row.piece_high (m ((c.tc : Thread nD τ).loc main_arg0)) (m ((c.tc : Thread nD τ).loc main_arg1)) (m ((c.tc : Thread nD τ).loc main_arg4)) (m ((c.tc : Thread nD τ).loc main_arg7)) b s j))

/-- Every argument entry is a real number: what the precondition gives. -/
structure ArgsReal (c : Dev nD) : Prop where
  x : ∀ i, ∃ r : ℝ, (aX m c) i = r
  w0 : ∀ i, ∃ r : ℝ, (aW0 m c) i = r
  w1 : ∀ i, ∃ r : ℝ, (aW1 m c) i = r
  w2 : ∀ i, ∃ r : ℝ, (aW2 m c) i = r
  b0 : ∀ i, ∃ r : ℝ, (aB0 m c) i = r
  b1 : ∀ i, ∃ r : ℝ, (aB1 m c) i = r
  b2 : ∀ i, ∃ r : ℝ, (aB2 m c) i = r

/-- Every score of a token is then a real number. -/
theorem scores_real (c : Dev nD) (hf : ArgsReal m c) (b : Fin 2) (s : Fin 1024) (v : Fin 50000) :
    ∃ r : ℝ, refScores m c b s v = r := by
  by_cases h0 : v.val < 20000
  · obtain ⟨μ, hμ⟩ := mask_real 0#32 20000#32 ((aT m c) (ix2 b s))
    rw [show v = ⟨(⟨v.val, h0⟩ : Fin 20000).val, by omega⟩ from rfl, ref_low]
    unfold sc0; rw [hμ]
    exact score_real _ _ _ μ (fun k => hf.x _) (fun k => hf.w0 _) (hf.b0 _)
  · by_cases h1 : v.val < 40000
    · obtain ⟨μ, hμ⟩ := mask_real 20000#32 40000#32 ((aT m c) (ix2 b s))
      rw [show v = ⟨20000 + (⟨v.val - 20000, by omega⟩ : Fin 20000).val, by omega⟩ from Fin.ext (by show v.val = 20000 + (v.val - 20000); omega), ref_mid]
      unfold sc1; rw [hμ]
      exact score_real _ _ _ μ (fun k => hf.x _) (fun k => hf.w1 _) (hf.b1 _)
    · have hv := v.isLt
      obtain ⟨μ, hμ⟩ := mask_real 40000#32 50000#32 ((aT m c) (ix2 b s))
      rw [show v = ⟨20000 + 20000 + (⟨v.val - 40000, by omega⟩ : Fin 10000).val, by omega⟩ from Fin.ext (by show v.val = 20000 + 20000 + (v.val - 40000); omega), ref_high]
      unfold sc2; rw [hμ]
      exact score_real _ _ _ μ (fun k => hf.x _) (fun k => hf.w2 _) (hf.b2 _)

/-- **The bridge.**  Row `p` of the block at point `t`, column `v`, is the reference's result at token `(b, s)`,
    vocabulary entry `v`. -/
theorem entry_eq_ref (c : Dev nD) (t : Fin cfg0.N) (p : Fin 16) (r : Fin 2048) (b : Fin 2) (s : Fin 1024)
    (hr : r.val = 16 * t.val + p.val) (hbs : r.val = 1024 * b.val + s.val) (hf : ArgsReal m c) (v : Fin 50000) :
    outsAt0 m c t (ix2 p v) = refOut m c (ix3 b s v) := by
  have law := fun a => sub_pieceLse (n0 := 20000) (n1 := 20000) (n2 := 10000) (N := 50000) rfl (refScores m c b s)
    (sc0 m c b s) (sc1 m c b s) (sc2 m c b s) (ref_low m c b s) (ref_mid m c b s) (ref_high m c b s) (by decide)
    (scores_real m c hf b s) a
  refine Eq.trans ?_ (Cert.ReferenceIdeal.Row.out_apply (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) b s v).symm
  by_cases h0 : v.val < 20000
  · have hv : v = ⟨(⟨v.val, h0⟩ : Fin 20000).val, by omega⟩ := rfl
    rw [hv, entry_low m c t p r b s hr hbs ⟨v.val, h0⟩, law, ← ref_low m c b s ⟨v.val, h0⟩]
  · by_cases h1 : v.val < 40000
    · have hv : v = ⟨20000 + (⟨v.val - 20000, by omega⟩ : Fin 20000).val, by omega⟩ :=
        Fin.ext (by show v.val = 20000 + (v.val - 20000); omega)
      rw [hv, entry_mid m c t p r b s hr hbs ⟨v.val - 20000, by omega⟩, law, ← ref_mid m c b s ⟨v.val - 20000, by omega⟩]
    · have hlt := v.isLt
      have hv : v = ⟨40000 + (⟨v.val - 40000, by omega⟩ : Fin 10000).val, by omega⟩ :=
        Fin.ext (by show v.val = 40000 + (v.val - 40000); omega)
      have hv' : (⟨40000 + (⟨v.val - 40000, by omega⟩ : Fin 10000).val, by omega⟩ : Fin 50000)
          = ⟨20000 + 20000 + (⟨v.val - 40000, by omega⟩ : Fin 10000).val, by omega⟩ := Fin.ext (by show 40000 + _ = 20000 + 20000 + _; omega)
      rw [hv, entry_high m c t p r b s hr hbs ⟨v.val - 40000, by omega⟩, law, hv', ← ref_high m c b s ⟨v.val - 40000, by omega⟩]

end Cert.KernelIdeal.Entry

end
-- ==== Proof.KernelValue.lean ====
/-
  The kernel's result array after the run.

  Every grid point writes its [16, 50000] block back at rows `16 t … 16 t + 15`; the 128 blocks cover the
  [2048, 50000] output array, and each block is the matching rows of one function of the argument arrays — the
  reference's result read at token `(r / 1024, r % 1024)` for row `r` — so the array after the run is that function.
  The host then splits the leading axis back into [2, 1024], which keeps the row-major position: the program's
  result at `(b, s, v)` is the array at `(1024 b + s, v)`, the reference's result at `(b, s, v)`.
-/
import proofs.«177122_j56908316672215_1_alg».proof.Proof.KernelEntry
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.StableHlo
open Idealize.ShloMosaic.Pipeline (Dat)

namespace Cert.KernelIdeal.Value

open Cert.KernelIdeal Cert.KernelIdeal.Gen Cert.KernelIdeal.Entry

variable (m : (ℓ : Loc nD τ sig) → Buf (Elt Ideal) ℓ) (ρ : Dev nD → PrngReg)

/-- The [2048, 50000] output array after the run: row `r` is token `(r / 1024, r % 1024)` of the reference's result. -/
def outArr (c : Dev nD) : S2048x50000.Idx → EReal := fun i =>
  refOut m c (ix3 (⟨(i 0).val / 1024, by have h : (i 0).val < 2048 := (i 0).isLt; omega⟩ : Fin 2)
    (⟨(i 0).val % 1024, Nat.mod_lt _ (by decide)⟩ : Fin 1024) (⟨(i 1).val, (i 1).isLt⟩ : Fin 50000))

/-- An entry of the block at point `t` is the array's entry at the block's position. -/
theorem entry (c : Dev nD) (t : Fin cfg0.N) (hf : ArgsReal m c) (y : S16x50000.Idx) (i : S2048x50000.Idx)
    (h0 : (i 0).val = 16 * t.val + (y 0).val) (h1 : (i 1).val = (y 1).val) : outsAt0 m c t y = outArr m c i := by
  obtain ⟨p, v, rfl⟩ : ∃ (p : Fin 16) (v : Fin 50000), y = ix2 p v := ⟨y 0, y 1, eq_ix2 y⟩
  have hi0 : (i 0).val < 2048 := (i 0).isLt
  unfold outArr
  have hv : (⟨(i 1).val, (i 1).isLt⟩ : Fin 50000) = v := Fin.ext h1
  rw [hv]
  exact entry_eq_ref m c t p ⟨(i 0).val, hi0⟩ ⟨(i 0).val / 1024, by omega⟩ ⟨(i 0).val % 1024, Nat.mod_lt _ (by decide)⟩ h0
    (by show (i 0).val = 1024 * ((i 0).val / 1024) + (i 0).val % 1024; omega) hf v

/-- What point `t` writes back is block `t` of the array. -/
theorem flushed_eq (c : Dev nD) (hf : ArgsReal m c) (t : Fin cfg0.N) :
    (dats m 0 c).flushed 8 t = ((cfg0.win 8).blk t).view.read (Elt Ideal) (outArr m c) := by
  show (cfg0.win 8).cut (grid0.coords t) ((dats m 0 c).after 8 t) = _
  rw [after0_8]
  obtain ⟨e0, e1⟩ := Blocks.idx_rows8 t
  funext y
  show outsAt0 m c t y = outArr m c (((cfg0.win 8).blk t).view.emb y)
  refine entry m c t hf y _ ?_ ?_
  · show win0_8.index t (0 : Fin 2) * 16 + 1 * (y 0).val = 16 * t.val + (y 0).val
    rw [e0]; omega
  · show win0_8.index t (1 : Fin 2) * 50000 + 1 * (y 1).val = (y 1).val
    rw [e1]; omega

/-- An index of the array is in point `t`'s block iff each coordinate is in the block's range on its axis. -/
theorem mem_blk (t : Fin cfg0.N) (i : S2048x50000.Idx) :
    i ∈ ((cfg0.win 8).blk t).view.set ↔ ∀ a : Fin 2, win0_8.index t a * S16x50000.size a ≤ (i a).val
      ∧ (i a).val < win0_8.index t a * S16x50000.size a + S16x50000.size a := by
  show i ∈ ((View.whole main_v9).slice (win0_8.rect t)).set ↔ _
  rw [View.set_slice_whole, Rect.mem_set_unit]
  exact Iff.rfl

/-- Row `r` of the array is in the block of point `r / 16`. -/
theorem cover (i : S2048x50000.Idx) :
    ∃ t : Fin cfg0.N, (cfg0.win 8).flush t = true ∧ i ∈ ((cfg0.win 8).blk t).view.set := by
  have hN : cfg0.N = 128 := N_0
  have hi0 : (i 0).val < 2048 := (i 0).isLt
  have hi1 : (i 1).val < 50000 := (i 1).isLt
  refine ⟨⟨(i 0).val / 16, by omega⟩, flush0_8 _, ?_⟩
  rw [mem_blk]
  obtain ⟨e0, e1⟩ := Blocks.idx_rows8 ⟨(i 0).val / 16, by omega⟩
  intro a
  match a with
  | ⟨0, _⟩ =>
    show win0_8.index _ (0 : Fin 2) * 16 ≤ (i 0).val ∧ (i 0).val < win0_8.index _ (0 : Fin 2) * 16 + 16
    rw [e0]; dsimp only; omega
  | ⟨1, _⟩ =>
    show win0_8.index _ (1 : Fin 2) * 50000 ≤ (i 1).val ∧ (i 1).val < win0_8.index _ (1 : Fin 2) * 50000 + 50000
    rw [e1]; omega

/-- The output array after the run. -/
theorem final (c : Dev nD) (hf : ArgsReal m c) : (dats m 0 c).arrAt 8 cfg0.N = outArr m c :=
  (dats m 0 c).arrAt_eq_of_cover 8 (outArr m c) (fun t _ => flushed_eq m c hf t) (cover)

/-- The program's result: the array with its leading axis split back, the reference's result. -/
theorem tail_eq (c : Dev nD) (hf : ArgsReal m c) :
    Pipeline.afterTail₀ cfgs (dats m) 0 (V0 m) [hostOps1] c main_v10 = refOut m c := by
  unfold Pipeline.afterTail₀
  show StableHlo.after hostOps1 _ (Proc.devRef .tc main_v10) = _
  after_results
  have hA : Pipeline.withArrays (cfgs 0).spec c (V0 m c) (fun w => (dats m 0 c).arrAt w (cfgs 0).N) (Proc.devRef .tc main_v9)
      = outArr m c :=
    (Pipeline.withArrays_arr spec0 winFacts0.arr_inj c (V0 m c) (fun w => (dats m 0 c).arrAt w cfg0.N) 8).trans (final m c hf)
  refine funext fun (i : S2x1024x50000.Idx) => ?_
  obtain ⟨b, s, v, rfl⟩ : ∃ (b : Fin 2) (s : Fin 1024) (v : Fin 50000), i = ix3 b s v := ⟨i 0, i 1, i 2, eq_ix3 i⟩
  show shapeCast S2x1024x50000 (Pipeline.withArrays (cfgs 0).spec c (V0 m c) (fun w => (dats m 0 c).arrAt w (cfgs 0).N)
    (Proc.devRef .tc main_v9)) shapeCasts_S2048x50000_S2x1024x50000 (ix3 b s v) = refOut m c (ix3 b s v)
  refine (congrArg (fun W : S2048x50000.Idx → EReal => shapeCast S2x1024x50000 W shapeCasts_S2048x50000_S2x1024x50000 (ix3 b s v)) hA).trans ?_
  have hb := b.isLt
  have hs := s.isLt
  refine (shapeCast_apply (outArr m c) _ (ix3 b s v) (ix2 (⟨1024 * b.val + s.val, by omega⟩ : Fin 2048) v) (by
    rw [Shape.rowMajor_val_two, Shape.rowMajor_val_three]
    show (1024 * b.val + s.val) * 50000 + v.val = (b.val * 1024 + s.val) * 50000 + v.val
    omega)).trans ?_
  unfold outArr
  refine congrArg (refOut m c) (funext fun a => Fin.ext ?_)
  match a with
  | ⟨0, _⟩ => show (1024 * b.val + s.val) / 1024 = b.val; omega
  | ⟨1, _⟩ => show (1024 * b.val + s.val) % 1024 = s.val; omega
  | ⟨2, _⟩ => rfl

/-- The kernel's run, read: its result is the reference's function of the argument arrays, and the arguments are
    unchanged. -/
theorem run (hf : ∀ c, ArgsReal m c) :
    θ_run defs (onTc (τ := τ) (main (F := Ideal))) ⟨m, fun _ => 0, ρ⟩ fun r => ∀ c : Dev nD,
      r.2.mem ((c.tc : Thread nD τ).loc main_v10) = refOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨((h c).2 main_v10 (Pipeline.mem_restRefs_of main_v10 (by decide) (by decide))).trans (tail_eq m c (hf c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.Value

end
-- ==== Proof.Finite.lean ====
/-
  What the precondition says: every entry of every float argument is a real number.

  The precondition is the conjunction, over the seven float arguments, of "every entry's absolute value is below
  +∞".  Over the extended reals `|x| = max x (−x)` is below `+∞` exactly when `x` is neither infinity, that is,
  when `x` is a real number.  A conjunction of one-bit words is 1 only if both are, and an all-reduction by `and`
  is 1 only if every word reduced is.
-/
import proofs.«177122_j56908316672215_1_alg».proof.Pre_finite_inputs
import Idealize.ShloMosaic.Lib.ReduceAll
import Idealize.ShloMosaic.Lib.ValueIdx
import Idealize.ShloMosaic.Lib.Pipeline.Value
import Idealize.ShloMosaic.PureOps.Ideal.Laws

noncomputable section

open Idealize.ShloMosaic

namespace Cert.Finite

open Cert.Pre_finite_inputs Cert.Pre_finite_inputs.Facts

instance : Subsingleton S_.Idx := ⟨fun a b => funext fun d => d.elim0⟩

/-- An extended real whose absolute value is below +∞ is a real number. -/
theorem real_of_lt (x : EReal) (h : Ideal.cmp .olt (max x (-x)) (Ideal.ofBits .f32 0x7F800000#32) = 1#1) :
    ∃ r : ℝ, x = r := by
  have hinf : Ideal.ofBits .f32 0x7F800000#32 = ⊤ := by simp [Ideal.ofBits, Ideal.ieee]
  rw [hinf] at h
  have hlt : max x (-x) < ⊤ := by
    by_contra hn
    simp [Ideal.cmp, hn] at h
  induction x using EReal.rec with
  | bot => simp at hlt
  | coe r => exact ⟨r, rfl⟩
  | top => simp at hlt

/-- One argument's check: if "every entry's absolute value is below +∞" came out true, every entry is real. -/
theorem real_of_all {s : Shape} {axes : List (Fin s.rank)} (a : FVec Ideal s .f32)
    (hb : S_.BroadcastsInDim s (![] : Fin 0 → Fin s.rank)) (hr : s.ReducesTo axes S_) (hu : 0 < S_.numel) (c1 : IVec S_ 1)
    (e : Host.reduce IntOp.andi (cmpf .olt (Host.absf a) (broadcastInDim s ![] hb (constant (F := Ideal) S_ .f32 0x7F800000#32)))
          c1 hr hu ValueIdx.ix0 = 1#1) (i : s.Idx) : ∃ r : ℝ, a i = r := by
  have hi := Host.reduce_andi_all _ _ hr hu _ e i
  have hB : broadcastInDim s ![] hb (constant (F := Ideal) S_ .f32 0x7F800000#32) i = Ideal.ofBits .f32 0x7F800000#32 :=
    broadcastInDim_apply _ hb _ i (fun a => a.elim0) (fun a => a.elim0)
  have hi' : Ideal.cmp .olt (max (a i) (-(a i)))
      (broadcastInDim s ![] hb (constant (F := Ideal) S_ .f32 0x7F800000#32) i) = 1#1 := hi
  rw [hB] at hi'
  exact real_of_lt _ hi'

variable [Facts]

/-- Under the precondition every entry of the seven float arguments is a real number. -/
theorem args_real (a0 : FVec Ideal S2x1024x256 .f32) (a1 : IVec S2x1024 32) (a2 a3 : FVec Ideal S20000x256 .f32)
    (a4 : FVec Ideal S10000x256 .f32) (a5 a6 : FVec Ideal S20000 .f32) (a7 : FVec Ideal S10000 .f32)
    (h : fn (F := Ideal) a0 a1 a2 a3 a4 a5 a6 a7 = fun _ => 1#1) :
    (∀ i, ∃ r : ℝ, a0 i = r) ∧ (∀ i, ∃ r : ℝ, a2 i = r) ∧ (∀ i, ∃ r : ℝ, a3 i = r) ∧ (∀ i, ∃ r : ℝ, a4 i = r)
      ∧ (∀ i, ∃ r : ℝ, a5 i = r) ∧ (∀ i, ∃ r : ℝ, a6 i = r) ∧ (∀ i, ∃ r : ℝ, a7 i = r) := by
  have h0 := congrFun h ValueIdx.ix0
  dsimp only [fn, fn_part1] at h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨real_of_all a0 _ _ _ _ e0, real_of_all a2 _ _ _ _ e2, real_of_all a3 _ _ _ _ e3, real_of_all a4 _ _ _ _ e4,
    real_of_all a5 _ _ _ _ e5, real_of_all a6 _ _ _ _ e6, real_of_all a7 _ _ _ _ e7⟩

end Cert.Finite

end
-- ==== Proof.lean ====
/-
  The claim: the kernel and its idealization run (terminate without a fault, their arguments unchanged), the reference
  runs, the idealization rewrote nothing, and at the ideal instance the idealized kernel and the idealized reference,
  run from memories that agree on the arguments, end with equal results.

  The kernel computes, for each of the 2048 tokens, the scores of the three vocabulary clusters — the token's features
  against the cluster's weights, plus the bias, the whole piece zeroed unless the token's target id lies in the
  cluster — and stores `score − (M + log (Σ₀ + Σ₁ + Σ₂))`, with `M` the maximum of the three pieces' maxima and `Σᵢ`
  the pieces' sums of `exp (score − M)`.  The reference joins the same three pieces and applies jax's log-softmax,
  `(score − M) − log (0 + Σ exp (score − M))`.  Over the extended reals a change of float format is the identity, a
  matrix product is the same sum on both sides, a row's maximum and a row's sum do not depend on how the row is cut
  into pieces, and `a − (M + L) = (a − M) − L` as soon as `M` is a real number — which it is, the maximum of a
  nonempty row of real scores, every argument entry being real under the precondition.
-/
import proofs.«177122_j56908316672215_1_alg».proof.Defs
import proofs.«177122_j56908316672215_1_alg».proof.Proof.Gen.Kernel
import proofs.«177122_j56908316672215_1_alg».proof.Proof.Gen.Kernel.Skeleton
import proofs.«177122_j56908316672215_1_alg».proof.Proof.Gen.Kernel.Launch
import proofs.«177122_j56908316672215_1_alg».proof.Proof.Gen.Kernel.Points
import proofs.«177122_j56908316672215_1_alg».proof.Proof.Gen.Kernel.Frame
import proofs.«177122_j56908316672215_1_alg».proof.Proof.Gen.KernelIdeal
import proofs.«177122_j56908316672215_1_alg».proof.Proof.Gen.KernelIdeal.Skeleton
import proofs.«177122_j56908316672215_1_alg».proof.Proof.Gen.KernelIdeal.Launch
import proofs.«177122_j56908316672215_1_alg».proof.Proof.Gen.KernelIdeal.Points
import proofs.«177122_j56908316672215_1_alg».proof.Proof.Gen.KernelIdeal.Frame
import proofs.«177122_j56908316672215_1_alg».proof.Proof.Gen.ReferenceIdeal
import proofs.«177122_j56908316672215_1_alg».proof.Proof.Gen.Pre_finite_inputs
import proofs.«177122_j56908316672215_1_alg».proof.Proof.KernelValue
import proofs.«177122_j56908316672215_1_alg».proof.Proof.Finite
import Idealize.ShloMosaic.Adequacy
import Idealize.ShloMosaic.Init

noncomputable section

namespace Cert.Proof

open Idealize.ShloMosaic Idealize.SL.Sem

/-- The kernel at the word-level instance runs and keeps its arguments. -/
theorem frame_kernel : Cert.frame_Kernel := fun m ρ _ => Cert.Kernel.Gen.frame m ρ

/-- So does its idealization, at any instance. -/
theorem frame_kernelIdeal : Cert.frame_KernelIdeal := fun m ρ _ => Cert.KernelIdeal.Gen.frame m ρ

/-- The reference's run, with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end with the reference's function of the arguments. -/
theorem algebraic : Cert.algebraic_KernelIdeal_ReferenceIdeal := by
  intro m ρ m' ρ' hpre hagree
  have hf : ∀ c, Cert.KernelIdeal.Entry.ArgsReal m c := fun c => by
    obtain ⟨h0, h2, h3, h4, h5, h6, h7⟩ := Cert.Finite.args_real _ _ _ _ _ _ _ _ (hpre c)
    exact ⟨h0, h2, h3, h4, h5, h6, h7⟩
  refine ⟨fun c => Cert.KernelIdeal.Entry.refOut m c, Cert.KernelIdeal.Value.run m ρ hf, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v40_eq m' c, (hagree c).1, (hagree c).2.1, (hagree c).2.2.1, (hagree c).2.2.2.1,
    (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
